-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x1024 : Shape := ⟨3, ![1, 2048, 1024]⟩
abbrev S8x1024x2048 : Shape := ⟨3, ![8, 1024, 2048]⟩
abbrev S8x1024x1024 : Shape := ⟨3, ![8, 1024, 1024]⟩
abbrev S2048x2 : Shape := ⟨2, ![2048, 2]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S8x1024x2048 : S_.BroadcastsInDim S8x1024x2048 (![] : Fin 0 → Fin S8x1024x2048.rank)
  reducesTo_S8x1024x2048_S_d0_1_2 : S8x1024x2048.ReducesTo [0, 1, 2] S_
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S2048x2 : S_.BroadcastsInDim S2048x2 (![] : Fin 0 → Fin S2048x2.rank)
  reducesTo_S2048x2_S_d0_1 : S2048x2.ReducesTo [0, 1] S_

variable [Facts]

def fn_part1 {F : FTy → Type} [FloatOps F] (main_v13 : IVec S_ 1) (main_v16 : IVec S2048x2 1) : IVec S_ 1 :=
  let main_c_5 : IVec S_ 1 := constantI S_ 1 1#1
  let main_v17 : IVec S_ 1 := (fun x v => Host.reduce IntOp.andi x v reducesTo_S2048x2_S_d0_1 h_S_) main_v16 main_c_5
  let main_v18 : IVec S_ 1 := andi main_v13 main_v17
  main_v18

def fn {F : FTy → Type} [FloatOps F] (main_arg0 : FVec F S1x2048x1024 .f32) (main_arg1 : FVec F S8x1024x2048 .f32) (main_arg2 : FVec F S8x1024x1024 .f32) (main_arg3 : IVec S2048x2 32) (main_arg4 : FVec F S2048x2 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S8x1024x2048 .f32 := Host.absf main_arg1
  let main_cst_0 : FVec F S_ .f32 := constant S_ .f32 0x7F800000#32
  let main_v5 : FVec F S8x1024x2048 .f32 := broadcastInDim S8x1024x2048 ![] bcast_S_S8x1024x2048 main_cst_0
  let main_v6 : IVec S8x1024x2048 1 := cmpf .olt main_v4 main_v5
  let main_c_1 : IVec S_ 1 := constantI S_ 1 1#1
  let main_v7 : IVec S_ 1 := (fun x v => Host.reduce IntOp.andi x v reducesTo_S8x1024x2048_S_d0_1_2 h_S_) main_v6 main_c_1
  let main_v8 : IVec S_ 1 := andi main_v3 main_v7
  let main_v9 : FVec F S8x1024x1024 .f32 := Host.absf main_arg2
  let main_cst_2 : FVec F S_ .f32 := constant S_ .f32 0x7F800000#32
  let main_v10 : FVec F S8x1024x1024 .f32 := broadcastInDim S8x1024x1024 ![] bcast_S_S8x1024x1024 main_cst_2
  let main_v11 : IVec S8x1024x1024 1 := cmpf .olt main_v9 main_v10
  let main_c_3 : IVec S_ 1 := constantI S_ 1 1#1
  let main_v12 : IVec S_ 1 := (fun x v => Host.reduce IntOp.andi x v reducesTo_S8x1024x1024_S_d0_1_2 h_S_) main_v11 main_c_3
  let main_v13 : IVec S_ 1 := andi main_v8 main_v12
  let main_v14 : FVec F S2048x2 .f32 := Host.absf main_arg4
  let main_cst_4 : FVec F S_ .f32 := constant S_ .f32 0x7F800000#32
  let main_v15 : FVec F S2048x2 .f32 := broadcastInDim S2048x2 ![] bcast_S_S2048x2 main_cst_4
  let main_v16 : IVec S2048x2 1 := cmpf .olt main_v14 main_v15
  fn_part1 (F := F) main_v13 main_v16
-- ==== Kernel.lean ====
abbrev S1x2048x1024 : Shape := ⟨3, ![1, 2048, 1024]⟩
abbrev S8x1024x2048 : Shape := ⟨3, ![8, 1024, 2048]⟩
abbrev S8x1024x1024 : Shape := ⟨3, ![8, 1024, 1024]⟩
abbrev S2048x2 : Shape := ⟨2, ![2048, 2]⟩
abbrev S2048x1024 : Shape := ⟨2, ![2048, 1024]⟩
abbrev S512x2 : Shape := ⟨2, ![512, 2]⟩
abbrev S512x1024 : Shape := ⟨2, ![512, 1024]⟩
abbrev S1x1024x2048 : Shape := ⟨3, ![1, 1024, 2048]⟩
abbrev S1x1024x1024 : Shape := ⟨3, ![1, 1024, 1024]⟩
abbrev S1024x2048 : Shape := ⟨2, ![1024, 2048]⟩
abbrev S512x2048 : Shape := ⟨2, ![512, 2048]⟩
abbrev S1024x1024 : Shape := ⟨2, ![1024, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S1x2048x1024, .f32⟩
  | .hbm, ⟨1, _⟩ => ⟨S8x1024x2048, .f32⟩
  | .hbm, ⟨2, _⟩ => ⟨S8x1024x1024, .f32⟩
  | .hbm, ⟨3, _⟩ => ⟨S2048x2, .i32⟩
  | .hbm, ⟨4, _⟩ => ⟨S2048x2, .f32⟩
  | .hbm, ⟨5, _⟩ => ⟨S2048x1024, .f32⟩
  | .hbm, ⟨6, _⟩ => ⟨S2048x1024, .f32⟩
  | .hbm, ⟨7, _⟩ => ⟨S1x2048x1024, .f32⟩
  | .local _ .vmem, ⟨0, _⟩ => ⟨S512x2, .i32⟩
  | .local _ .vmem, ⟨1, _⟩ => ⟨S512x2, .i32⟩
  | .local _ .vmem, ⟨2, _⟩ => ⟨S512x2, .f32⟩
  | .local _ .vmem, ⟨3, _⟩ => ⟨S512x2, .f32⟩
  | .local _ .vmem, ⟨4, _⟩ => ⟨S512x1024, .f32⟩
  | .local _ .vmem, ⟨5, _⟩ => ⟨S512x1024, .f32⟩
  | .local _ .vmem, ⟨6, _⟩ => ⟨S1x1024x2048, .f32⟩
  | .local _ .vmem, ⟨7, _⟩ => ⟨S1x1024x2048, .f32⟩
  | .local _ .vmem, ⟨8, _⟩ => ⟨S1x1024x1024, .f32⟩
  | .local _ .vmem, ⟨9, _⟩ => ⟨S1x1024x1024, .f32⟩
  | .local _ .vmem, ⟨10, _⟩ => ⟨S512x1024, .f32⟩
  | .local _ .vmem, ⟨11, _⟩ => ⟨S512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v27 : BitVec 1 := Scalar.cmpi .eq arg1 c0_i32
  let v28 : BitVec 32 := Scalar.extui v27
  let c0_i32_14 : BitVec 32 := 0#32
  let v29 : BitVec 1 := Scalar.cmpi .ne v28 c0_i32_14
  v29

def k0_cond2 (i : grid0.Coords) : BitVec 1 :=
  let arg1 : BitVec 32 := BitVec.ofNat 32 (i 1).val
  let c0_i32_15 : BitVec 32 := 0#32
  let v30 : BitVec 1 := Scalar.cmpi .sgt arg1 c0_i32_15
  let v31 : BitVec 32 := Scalar.extui v30
  let c0_i32_16 : BitVec 32 := 0#32
  let v32 : BitVec 1 := Scalar.cmpi .ne v31 c0_i32_16
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S1x2048x1024_S2048x1024 : S1x2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  slices_S512x2048_o0_0_S512x1024 : S512x2048.Slices ![0, 0] S512x1024
  slices_S512x2048_o0_1024_S512x1024 : S512x2048.Slices ![0, 1024] S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S512x2_S512x2_0_0 : ∀ a, (![0, 0] : Fin 2 → Nat) a + S512x2.size a ≤ S512x2.size a
  h_S512x2 : 0 < S512x2.numel
  reduces_S512x2_S512 : S512x2.Reduces [1] S512
  shapeCasts_S512_S512x1 : S512.ShapeCasts S512x1
  broadcasts_S512x1_S512x1024 : S512x1.Broadcasts S512x1024
  shapeCasts_S2048x1024_S1x2048x1024 : S2048x1024.ShapeCasts S1x2048x1024
  dot_S512x1024_S1024x2048_S512x2048_1_0_0_1_n_n_wf : DotDims.WF S512x1024 S1024x2048 S512x2048 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S2048x2.size a
  hwx0_0 : ∀ i : grid0.Coords, EltTy.bits .i32 = 32 ∨ (Rect.block (s := S2048x2) S512x2.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2.size a ≤ S2048x2.size a
  hwx0_1 : ∀ i : grid0.Coords, EltTy.bits .f32 = 32 ∨ (Rect.block (s := S2048x2) S512x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x1024.size a
  hwx0_2 : ∀ i : grid0.Coords, EltTy.bits .f32 = 32 ∨ (Rect.block (s := S2048x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S8x1024x2048.size a
  hwx0_3 : ∀ i : grid0.Coords, EltTy.bits .f32 = 32 ∨ (Rect.block (s := S8x1024x2048) S1x1024x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S8x1024x1024.size a
  hwx0_4 : ∀ i : grid0.Coords, EltTy.bits .f32 = 32 ∨ (Rect.block (s := S8x1024x1024) S1x1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S2048x1024.size a
  hwx0_5 : ∀ i : grid0.Coords, EltTy.bits .f32 = 32 ∨ (Rect.block (s := S2048x1024) S512x1024.size (cc0_transform_5 i) (hinb0_5 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg3) S512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) | ⟨_ + 6, h⟩ => absurd h (Nat.not_lt.2 (Nat.le_add_left _ _))

class Facts : Prop extends Facts₀ where

variable [Facts]
-- ==== ReferenceIdeal.lean ====
abbrev S1x2048x1024 : Shape := ⟨3, ![1, 2048, 1024]⟩
abbrev S8x1024x2048 : Shape := ⟨3, ![8, 1024, 2048]⟩
abbrev S8x1024x1024 : Shape := ⟨3, ![8, 1024, 1024]⟩
abbrev S2048x2 : Shape := ⟨2, ![2048, 2]⟩
abbrev S2048x1024 : Shape := ⟨2, ![2048, 1024]⟩
abbrev S_ : Shape := ⟨0, ![]⟩
abbrev S1x1024x2048 : Shape := ⟨3, ![1, 1024, 2048]⟩
abbrev S1024x2048 : Shape := ⟨2, ![1024, 2048]⟩
abbrev S2048x2048 : Shape := ⟨2, ![2048, 2048]⟩
abbrev S1x1024x1024 : Shape := ⟨3, ![1, 1024, 1024]⟩
abbrev S1024x1024 : Shape := ⟨2, ![1024, 1024]⟩
abbrev S2048 : Shape := ⟨1, ![2048]⟩
abbrev S2048x1 : Shape := ⟨2, ![2048, 1]⟩

abbrev nBuf : Space → Nat
  | .hbm => 257
  | .vmem => 0
  | .smem => 0
  | _ => 0

abbrev hbmTy0_0 (i : Nat) : BufTy := match i % 128 with
  | 0 => ⟨S1x2048x1024, .f32⟩
  | 1 => ⟨S8x1024x2048, .f32⟩
  | 2 => ⟨S8x1024x1024, .f32⟩
  | 3 => ⟨S2048x2, .i32⟩
  | 4 => ⟨S2048x2, .f32⟩
  | 5 => ⟨S2048x1024, .f32⟩
  | 6 => ⟨S_, .f32⟩
  | 7 => ⟨S2048x1024, .f32⟩
  | 8 => ⟨S1x1024x2048, .f32⟩
  | 9 => ⟨S1024x2048, .f32⟩
  | 10 => ⟨S2048x2048, .f32⟩
  | 11 => ⟨S2048x1024, .f32⟩
  | 12 => ⟨S2048x1024, .f32⟩
  | 13 => ⟨S2048x1024, .f32⟩
  | 14 => ⟨S2048x1024, .f32⟩
  | 15 => ⟨S_, .f32⟩
  | 16 => ⟨S2048x1024, .f32⟩
  | 17 => ⟨S2048x1024, .f32⟩
  | 18 => ⟨S_, .f32⟩
  | 19 => ⟨S2048x1024, .f32⟩
  | 20 => ⟨S2048x1024, .f32⟩
  | 21 => ⟨S2048x1024, .f32⟩
  | 22 => ⟨S2048x1024, .f32⟩
  | 23 => ⟨S1x1024x1024, .f32⟩
  | 24 => ⟨S1024x1024, .f32⟩
  | 25 => ⟨S2048x1024, .f32⟩
  | 26 => ⟨S_, .i32⟩
  | 27 => ⟨S2048x2, .i32⟩
  | 28 => ⟨S2048x2, .i1⟩
  | 29 => ⟨S_, .f32⟩
  | 30 => ⟨S_, .f32⟩
  | 31 => ⟨S2048x2, .f32⟩
  | 32 => ⟨S2048x2, .f32⟩
  | 33 => ⟨S_, .f32⟩
  | 34 => ⟨S2048, .f32⟩
  | 35 => ⟨S2048x1, .f32⟩
  | 36 => ⟨S2048x1024, .f32⟩
  | 37 => ⟨S2048x1024, .f32⟩
  | 38 => ⟨S2048x1024, .f32⟩
  | 39 => ⟨S1x1024x2048, .f32⟩
  | 40 => ⟨S1024x2048, .f32⟩
  | 41 => ⟨S2048x2048, .f32⟩
  | 42 => ⟨S2048x1024, .f32⟩
  | 43 => ⟨S2048x1024, .f32⟩
  | 44 => ⟨S2048x1024, .f32⟩
  | 45 => ⟨S2048x1024, .f32⟩
  | 46 => ⟨S_, .f32⟩
  | 47 => ⟨S2048x1024, .f32⟩
  | 48 => ⟨S2048x1024, .f32⟩
  | 49 => ⟨S_, .f32⟩
  | 50 => ⟨S2048x1024, .f32⟩
  | 51 => ⟨S2048x1024, .f32⟩
  | 52 => ⟨S2048x1024, .f32⟩
  | 53 => ⟨S2048x1024, .f32⟩
  | 54 => ⟨S1x1024x1024, .f32⟩
  | 55 => ⟨S1024x1024, .f32⟩
  | 56 => ⟨S2048x1024, .f32⟩
  | 57 => ⟨S_, .i32⟩
  | 58 => ⟨S2048x2, .i32⟩
  | 59 => ⟨S2048x2, .i1⟩
  | 60 => ⟨S_, .f32⟩
  | 61 => ⟨S_, .f32⟩
  | 62 => ⟨S2048x2, .f32⟩
  | 63 => ⟨S2048x2, .f32⟩
  | 64 => ⟨S_, .f32⟩
  | 65 => ⟨S2048, .f32⟩
  | 66 => ⟨S2048x1, .f32⟩
  | 67 => ⟨S2048x1024, .f32⟩
  | 68 => ⟨S2048x1024, .f32⟩
  | 69 => ⟨S2048x1024, .f32⟩
  | 70 => ⟨S1x1024x2048, .f32⟩
  | 71 => ⟨S1024x2048, .f32⟩
  | 72 => ⟨S2048x2048, .f32⟩
  | 73 => ⟨S2048x1024, .f32⟩
  | 74 => ⟨S2048x1024, .f32⟩
  | 75 => ⟨S2048x1024, .f32⟩
  | 76 => ⟨S2048x1024, .f32⟩
  | 77 => ⟨S_, .f32⟩
  | 78 => ⟨S2048x1024, .f32⟩
  | 79 => ⟨S2048x1024, .f32⟩
  | 80 => ⟨S_, .f32⟩
  | 81 => ⟨S2048x1024, .f32⟩
  | 82 => ⟨S2048x1024, .f32⟩
  | 83 => ⟨S2048x1024, .f32⟩
  | 84 => ⟨S2048x1024, .f32⟩
  | 85 => ⟨S1x1024x1024, .f32⟩
  | 86 => ⟨S1024x1024, .f32⟩
  | 87 => ⟨S2048x1024, .f32⟩
  | 88 => ⟨S_, .i32⟩
  | 89 => ⟨S2048x2, .i32⟩
  | 90 => ⟨S2048x2, .i1⟩
  | 91 => ⟨S_, .f32⟩
  | 92 => ⟨S_, .f32⟩
  | 93 => ⟨S2048x2, .f32⟩
  | 94 => ⟨S2048x2, .f32⟩
  | 95 => ⟨S_, .f32⟩
  | 96 => ⟨S2048, .f32⟩
  | 97 => ⟨S2048x1, .f32⟩
  | 98 => ⟨S2048x1024, .f32⟩
  | 99 => ⟨S2048x1024, .f32⟩
  | 100 => ⟨S2048x1024, .f32⟩
  | 101 => ⟨S1x1024x2048, .f32⟩
  | 102 => ⟨S1024x2048, .f32⟩
  | 103 => ⟨S2048x2048, .f32⟩
  | 104 => ⟨S2048x1024, .f32⟩
  | 105 => ⟨S2048x1024, .f32⟩
  | 106 => ⟨S2048x1024, .f32⟩
  | 107 => ⟨S2048x1024, .f32⟩
  | 108 => ⟨S_, .f32⟩
  | 109 => ⟨S2048x1024, .f32⟩
  | 110 => ⟨S2048x1024, .f32⟩
  | 111 => ⟨S_, .f32⟩
  | 112 => ⟨S2048x1024, .f32⟩
  | 113 => ⟨S2048x1024, .f32⟩
  | 114 => ⟨S2048x1024, .f32⟩
  | 115 => ⟨S2048x1024, .f32⟩
  | 116 => ⟨S1x1024x1024, .f32⟩
  | 117 => ⟨S1024x1024, .f32⟩
  | 118 => ⟨S2048x1024, .f32⟩
  | 119 => ⟨S_, .i32⟩
  | 120 => ⟨S2048x2, .i32⟩
  | 121 => ⟨S2048x2, .i1⟩
  | 122 => ⟨S_, .f32⟩
  | 123 => ⟨S_, .f32⟩
  | 124 => ⟨S2048x2, .f32⟩
  | 125 => ⟨S2048x2, .f32⟩
  | 126 => ⟨S_, .f32⟩
  | 127 => ⟨S2048, .f32⟩
  | _ => ⟨S1x2048x1024, .f32⟩

abbrev hbmTy0_1 (i : Nat) : BufTy := match i % 128 with
  | 0 => ⟨S2048x1, .f32⟩
  | 1 => ⟨S2048x1024, .f32⟩
  | 2 => ⟨S2048x1024, .f32⟩
  | 3 => ⟨S2048x1024, .f32⟩
  | 4 => ⟨S1x1024x2048, .f32⟩
  | 5 => ⟨S1024x2048, .f32⟩
  | 6 => ⟨S2048x2048, .f32⟩
  | 7 => ⟨S2048x1024, .f32⟩
  | 8 => ⟨S2048x1024, .f32⟩
  | 9 => ⟨S2048x1024, .f32⟩
  | 10 => ⟨S2048x1024, .f32⟩
  | 11 => ⟨S_, .f32⟩
  | 12 => ⟨S2048x1024, .f32⟩
  | 13 => ⟨S2048x1024, .f32⟩
  | 14 => ⟨S_, .f32⟩
  | 15 => ⟨S2048x1024, .f32⟩
  | 16 => ⟨S2048x1024, .f32⟩
  | 17 => ⟨S2048x1024, .f32⟩
  | 18 => ⟨S2048x1024, .f32⟩
  | 19 => ⟨S1x1024x1024, .f32⟩
  | 20 => ⟨S1024x1024, .f32⟩
  | 21 => ⟨S2048x1024, .f32⟩
  | 22 => ⟨S_, .i32⟩
  | 23 => ⟨S2048x2, .i32⟩
  | 24 => ⟨S2048x2, .i1⟩
  | 25 => ⟨S_, .f32⟩
  | 26 => ⟨S_, .f32⟩
  | 27 => ⟨S2048x2, .f32⟩
  | 28 => ⟨S2048x2, .f32⟩
  | 29 => ⟨S_, .f32⟩
  | 30 => ⟨S2048, .f32⟩
  | 31 => ⟨S2048x1, .f32⟩
  | 32 => ⟨S2048x1024, .f32⟩
  | 33 => ⟨S2048x1024, .f32⟩
  | 34 => ⟨S2048x1024, .f32⟩
  | 35 => ⟨S1x1024x2048, .f32⟩
  | 36 => ⟨S1024x2048, .f32⟩
  | 37 => ⟨S2048x2048, .f32⟩
  | 38 => ⟨S2048x1024, .f32⟩
  | 39 => ⟨S2048x1024, .f32⟩
  | 40 => ⟨S2048x1024, .f32⟩
  | 41 => ⟨S2048x1024, .f32⟩
  | 42 => ⟨S_, .f32⟩
  | 43 => ⟨S2048x1024, .f32⟩
  | 44 => ⟨S2048x1024, .f32⟩
  | 45 => ⟨S_, .f32⟩
  | 46 => ⟨S2048x1024, .f32⟩
  | 47 => ⟨S2048x1024, .f32⟩
  | 48 => ⟨S2048x1024, .f32⟩
  | 49 => ⟨S2048x1024, .f32⟩
  | 50 => ⟨S1x1024x1024, .f32⟩
  | 51 => ⟨S1024x1024, .f32⟩
  | 52 => ⟨S2048x1024, .f32⟩
  | 53 => ⟨S_, .i32⟩
  | 54 => ⟨S2048x2, .i32⟩
  | 55 => ⟨S2048x2, .i1⟩
  | 56 => ⟨S_, .f32⟩
  | 57 => ⟨S_, .f32⟩
  | 58 => ⟨S2048x2, .f32⟩
  | 59 => ⟨S2048x2, .f32⟩
  | 60 => ⟨S_, .f32⟩
  | 61 => ⟨S2048, .f32⟩
  | 62 => ⟨S2048x1, .f32⟩
  | 63 => ⟨S2048x1024, .f32⟩
  | 64 => ⟨S2048x1024, .f32⟩
  | 65 => ⟨S2048x1024, .f32⟩
  | 66 => ⟨S1x1024x2048, .f32⟩
  | 67 => ⟨S1024x2048, .f32⟩
  | 68 => ⟨S2048x2048, .f32⟩
  | 69 => ⟨S2048x1024, .f32⟩
  | 70 => ⟨S2048x1024, .f32⟩
  | 71 => ⟨S2048x1024, .f32⟩
  | 72 => ⟨S2048x1024, .f32⟩
  | 73 => ⟨S_, .f32⟩
  | 74 => ⟨S2048x1024, .f32⟩
  | 75 => ⟨S2048x1024, .f32⟩
  | 76 => ⟨S_, .f32⟩
  | 77 => ⟨S2048x1024, .f32⟩
  | 78 => ⟨S2048x1024, .f32⟩
  | 79 => ⟨S2048x1024, .f32⟩
  | 80 => ⟨S2048x1024, .f32⟩
  | 81 => ⟨S1x1024x1024, .f32⟩
  | 82 => ⟨S1024x1024, .f32⟩
  | 83 => ⟨S2048x1024, .f32⟩
  | 84 => ⟨S_, .i32⟩
  | 85 => ⟨S2048x2, .i32⟩
  | 86 => ⟨S2048x2, .i1⟩
  | 87 => ⟨S_, .f32⟩
  | 88 => ⟨S_, .f32⟩
  | 89 => ⟨S2048x2, .f32⟩
  | 90 => ⟨S2048x2, .f32⟩
  | 91 => ⟨S_, .f32⟩
  | 92 => ⟨S2048, .f32⟩
  | 93 => ⟨S2048x1, .f32⟩
  | 94 => ⟨S2048x1024, .f32⟩
  | 95 => ⟨S2048x1024, .f32⟩
  | 96 => ⟨S2048x1024, .f32⟩
  | 97 => ⟨S1x1024x2048, .f32⟩
  | 98 => ⟨S1024x2048, .f32⟩
  | 99 => ⟨S2048x2048, .f32⟩
  | 100 => ⟨S2048x1024, .f32⟩
  | 101 => ⟨S2048x1024, .f32⟩
  | 102 => ⟨S2048x1024, .f32⟩
  | 103 => ⟨S2048x1024, .f32⟩
  | 104 => ⟨S_, .f32⟩
  | 105 => ⟨S2048x1024, .f32⟩
  | 106 => ⟨S2048x1024, .f32⟩
  | 107 => ⟨S_, .f32⟩
  | 108 => ⟨S2048x1024, .f32⟩
  | 109 => ⟨S2048x1024, .f32⟩
  | 110 => ⟨S2048x1024, .f32⟩
  | 111 => ⟨S2048x1024, .f32⟩
  | 112 => ⟨S1x1024x1024, .f32⟩
  | 113 => ⟨S1024x1024, .f32⟩
  | 114 => ⟨S2048x1024, .f32⟩
  | 115 => ⟨S_, .i32⟩
  | 116 => ⟨S2048x2, .i32⟩
  | 117 => ⟨S2048x2, .i1⟩
  | 118 => ⟨S_, .f32⟩
  | 119 => ⟨S_, .f32⟩
  | 120 => ⟨S2048x2, .f32⟩
  | 121 => ⟨S2048x2, .f32⟩
  | 122 => ⟨S_, .f32⟩
  | 123 => ⟨S2048, .f32⟩
  | 124 => ⟨S2048x1, .f32⟩
  | 125 => ⟨S2048x1024, .f32⟩
  | 126 => ⟨S2048x1024, .f32⟩
  | 127 => ⟨S2048x1024, .f32⟩
  | _ => ⟨S1x2048x1024, .f32⟩

abbrev hbmTy0_2 (i : Nat) : BufTy := match i % 128 with
  | 0 => ⟨S1x2048x1024, .f32⟩
  | _ => ⟨S1x2048x1024, .f32⟩

abbrev hbmTy (i : Nat) : BufTy := match i / 128 with
  | 0 => hbmTy0_0 i
  | 1 => hbmTy0_1 i
  | 2 => hbmTy0_2 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_call1_v0 : Ref sig .tc := ⟨.hbm, 61, rfl⟩
abbrev main_call1_v1 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_9 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_11 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_14 : Ref sig .tc := ⟨.hbm, 108, rfl⟩
abbrev main_v81 : Ref sig .tc := ⟨.hbm, 109, rfl⟩
abbrev main_v82 : Ref sig .tc := ⟨.hbm, 110, rfl⟩
abbrev main_cst_15 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_c_16 : Ref sig .tc := ⟨.hbm, 119, rfl⟩
abbrev main_v90 : Ref sig .tc := ⟨.hbm, 120, rfl⟩
abbrev main_v91 : Ref sig .tc := ⟨.hbm, 121, rfl⟩
abbrev main_cst_17 : Ref sig .tc := ⟨.hbm, 122, rfl⟩
abbrev main_call3_v0 : Ref sig .tc := ⟨.hbm, 123, rfl⟩
abbrev main_call3_v1 : Ref sig .tc := ⟨.hbm, 124, rfl⟩
abbrev main_v92 : Ref sig .tc := ⟨.hbm, 125, rfl⟩
abbrev main_cst_18 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_19 : Ref sig .tc := ⟨.hbm, 139, rfl⟩
abbrev main_v105 : Ref sig .tc := ⟨.hbm, 140, rfl⟩
abbrev main_v106 : Ref sig .tc := ⟨.hbm, 141, rfl⟩
abbrev main_cst_20 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_c_21 : Ref sig .tc := ⟨.hbm, 150, rfl⟩
abbrev main_v114 : Ref sig .tc := ⟨.hbm, 151, rfl⟩
abbrev main_v115 : Ref sig .tc := ⟨.hbm, 152, rfl⟩
abbrev main_cst_22 : Ref sig .tc := ⟨.hbm, 153, rfl⟩
abbrev main_call4_v0 : Ref sig .tc := ⟨.hbm, 154, rfl⟩
abbrev main_call4_v1 : Ref sig .tc := ⟨.hbm, 155, rfl⟩
abbrev main_v116 : Ref sig .tc := ⟨.hbm, 156, rfl⟩
abbrev main_cst_23 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_24 : Ref sig .tc := ⟨.hbm, 170, rfl⟩
abbrev main_v129 : Ref sig .tc := ⟨.hbm, 171, rfl⟩
abbrev main_v130 : Ref sig .tc := ⟨.hbm, 172, rfl⟩
abbrev main_cst_25 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_c_26 : Ref sig .tc := ⟨.hbm, 181, rfl⟩
abbrev main_v138 : Ref sig .tc := ⟨.hbm, 182, rfl⟩
abbrev main_v139 : Ref sig .tc := ⟨.hbm, 183, rfl⟩
abbrev main_cst_27 : Ref sig .tc := ⟨.hbm, 184, rfl⟩
abbrev main_call5_v0 : Ref sig .tc := ⟨.hbm, 185, rfl⟩
abbrev main_call5_v1 : Ref sig .tc := ⟨.hbm, 186, rfl⟩
abbrev main_v140 : Ref sig .tc := ⟨.hbm, 187, rfl⟩
abbrev main_cst_28 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_cst_29 : Ref sig .tc := ⟨.hbm, 201, rfl⟩
abbrev main_v153 : Ref sig .tc := ⟨.hbm, 202, rfl⟩
abbrev main_v154 : Ref sig .tc := ⟨.hbm, 203, rfl⟩
abbrev main_cst_30 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_c_31 : Ref sig .tc := ⟨.hbm, 212, rfl⟩
abbrev main_v162 : Ref sig .tc := ⟨.hbm, 213, rfl⟩
abbrev main_v163 : Ref sig .tc := ⟨.hbm, 214, rfl⟩
abbrev main_cst_32 : Ref sig .tc := ⟨.hbm, 215, rfl⟩
abbrev main_call6_v0 : Ref sig .tc := ⟨.hbm, 216, rfl⟩
abbrev main_call6_v1 : Ref sig .tc := ⟨.hbm, 217, rfl⟩
abbrev main_v164 : Ref sig .tc := ⟨.hbm, 218, rfl⟩
abbrev main_cst_33 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_cst_34 : Ref sig .tc := ⟨.hbm, 232, rfl⟩
abbrev main_v177 : Ref sig .tc := ⟨.hbm, 233, rfl⟩
abbrev main_v178 : Ref sig .tc := ⟨.hbm, 234, rfl⟩
abbrev main_cst_35 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_c_36 : Ref sig .tc := ⟨.hbm, 243, rfl⟩
abbrev main_v186 : Ref sig .tc := ⟨.hbm, 244, rfl⟩
abbrev main_v187 : Ref sig .tc := ⟨.hbm, 245, rfl⟩
abbrev main_cst_37 : Ref sig .tc := ⟨.hbm, 246, rfl⟩
abbrev main_call7_v0 : Ref sig .tc := ⟨.hbm, 247, rfl⟩
abbrev main_call7_v1 : Ref sig .tc := ⟨.hbm, 248, rfl⟩
abbrev main_v188 : Ref sig .tc := ⟨.hbm, 249, rfl⟩
abbrev main_cst_38 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩

abbrev nD : Nat := 1
abbrev τ : Topo := Topo.v7x

variable {F : FTy → Type} [FloatOps F]

class Facts₀ : Prop where
  shapeCasts_S1x2048x1024_S2048x1024 : S1x2048x1024.ShapeCasts S2048x1024
  bcast_S_S2048x1024 : S_.BroadcastsInDim S2048x1024 (![] : Fin 0 → Fin S2048x1024.rank)
  slices_S8x1024x2048_S1x1024x2048_0_0_0 : S8x1024x2048.Slices ![0, 0, 0] S1x1024x2048
  shapeCasts_S1x1024x2048_S1024x2048 : S1x1024x2048.ShapeCasts S1024x2048
  slices_S2048x2048_S2048x1024_0_0 : S2048x2048.Slices ![0, 0] S2048x1024
  slices_S2048x2048_S2048x1024_0_1024 : S2048x2048.Slices ![0, 1024] S2048x1024
  slices_S8x1024x1024_S1x1024x1024_0_0_0 : S8x1024x1024.Slices ![0, 0, 0] S1x1024x1024
  shapeCasts_S1x1024x1024_S1024x1024 : S1x1024x1024.ShapeCasts S1024x1024
  bcast_S_S2048x2 : S_.BroadcastsInDim S2048x2 (![] : Fin 0 → Fin S2048x2.rank)
  reducesTo_S2048x2_S2048_d1 : S2048x2.ReducesTo [1] S2048
  h_S_ : 0 < S_.numel
  bcast_S2048_S2048x1_0 : S2048.BroadcastsInDim S2048x1 (![0] : Fin 1 → Fin S2048x1.rank)
  bcast_S2048x1_S2048x1024_0_1 : S2048x1.BroadcastsInDim S2048x1024 (![0, 1] : Fin 2 → Fin S2048x1024.rank)
  slices_S8x1024x2048_S1x1024x2048_1_0_0 : S8x1024x2048.Slices ![1, 0, 0] S1x1024x2048
  slices_S8x1024x1024_S1x1024x1024_1_0_0 : S8x1024x1024.Slices ![1, 0, 0] S1x1024x1024
  slices_S8x1024x2048_S1x1024x2048_2_0_0 : S8x1024x2048.Slices ![2, 0, 0] S1x1024x2048
  slices_S8x1024x1024_S1x1024x1024_2_0_0 : S8x1024x1024.Slices ![2, 0, 0] S1x1024x1024
  slices_S8x1024x2048_S1x1024x2048_3_0_0 : S8x1024x2048.Slices ![3, 0, 0] S1x1024x2048
  slices_S8x1024x1024_S1x1024x1024_3_0_0 : S8x1024x1024.Slices ![3, 0, 0] S1x1024x1024
  slices_S8x1024x2048_S1x1024x2048_4_0_0 : S8x1024x2048.Slices ![4, 0, 0] S1x1024x2048
  slices_S8x1024x1024_S1x1024x1024_4_0_0 : S8x1024x1024.Slices ![4, 0, 0] S1x1024x1024
  slices_S8x1024x2048_S1x1024x2048_5_0_0 : S8x1024x2048.Slices ![5, 0, 0] S1x1024x2048
  slices_S8x1024x1024_S1x1024x1024_5_0_0 : S8x1024x1024.Slices ![5, 0, 0] S1x1024x1024
  slices_S8x1024x2048_S1x1024x2048_6_0_0 : S8x1024x2048.Slices ![6, 0, 0] S1x1024x2048
  slices_S8x1024x1024_S1x1024x1024_6_0_0 : S8x1024x1024.Slices ![6, 0, 0] S1x1024x1024
  slices_S8x1024x2048_S1x1024x2048_7_0_0 : S8x1024x2048.Slices ![7, 0, 0] S1x1024x2048
  slices_S8x1024x1024_S1x1024x1024_7_0_0 : S8x1024x1024.Slices ![7, 0, 0] S1x1024x1024
  shapeCasts_S2048x1024_S1x2048x1024 : S2048x1024.ShapeCasts S1x2048x1024
  dot_S2048x1024_S1024x2048_S2048x2048_1_0_0_1_n_n_wf : DotDims.WF S2048x1024 S1024x2048 S2048x2048 [1] [0] [0] [1] [] []
  dot_S2048x1024_S1024x1024_S2048x1024_1_0_0_1_n_n_wf : DotDims.WF S2048x1024 S1024x1024 S2048x1024 [1] [0] [0] [1] [] []

variable [Facts₀]

def dot_S2048x1024_S1024x2048_S2048x2048_1_0_0_1_n_n : DotDims S2048x1024 S1024x2048 S2048x2048 where
  lhsContracting := [1]
  rhsContracting := [0]
  lhsNonContracting := [0]
  rhsNonContracting := [1]
  lhsBatch := []
  rhsBatch := []
  wf := dot_S2048x1024_S1024x2048_S2048x2048_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

class Facts : Prop extends Facts₀ where

variable [Facts]
-- ==== Proof.BitsRuns.lean ====
/-
  The kernel body of the routed mixture-of-experts layer, run once in each of the two situations a grid point can be in.

  The grid is 4 token blocks × 8 experts, the expert the fast axis; point t handles expert t mod 8 of token block t / 8.
  The body computes the expert's weighted contribution for the block and either STORES it into the output block (first
  expert, t ≡ 0 mod 8) or ADDS it to what the output block holds (every later expert). The two branch conditions of the
  body are decided over the grid in closed form here, and the body is run symbolically in each case on arbitrary whole
  staging buffers: the inputs are returned as found, the output buffer ends with the list of pieces the run stored.
-/
import proofs.«116809_g77670188581355_cont_9to1_m_704_5_alg».proof.Proof.Gen.Kernel.Frame
import proofs.«116809_g77670188581355_cont_9to1_m_704_5_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The body's first branch (the expert index is 0) is taken exactly at the points ≡ 0 (mod 8). -/
theorem first_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The body's second branch (the expert index is positive) is taken exactly at the other points. -/
theorem later_iff : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-! ## The staging buffers at a point -/

/-- One staging buffer of the output window, through which its contents are stated. -/
abbrev outView : View sig .tc .vmem S512x1024 .f32 := (Memref.whole cc0_stg5_0 : Memref sig .tc .vmem S512x1024 .f32).view

abbrev ms0 (t : Fin cfg0.N) : Memref sig .tc .vmem S512x2 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1024 .f32 := win0_5.stage (cfg0.slots t 5)
abbrev hs5 (t : Fin cfg0.N) : (ms5 t).IsWhole := hstage0_5 ((cfg0.slots t 5).cast nbuf0_5)

/-! ## The body in each case -/

set_option maxHeartbeats 4000000 in
/-- FIRST EXPERT of a token block (first branch taken, second not). On whole staging buffers — the five inputs at
    contents `x0 … x4`, the output buffer at anything — the body runs to the end, hands the inputs back as found, and
    leaves the output buffer with the pieces `L` it stored (found by the symbolic run). -/
noncomputable def runFirst (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (hc1 : k0_cond1 i = 1#1) (hc2 : ¬ k0_cond2 i = 1#1)
    (x0 : Vec F S512x2 .i32) (x1 : Vec F S512x2 .f32) (x2 : Vec F S512x1024 .f32) (x3 : Vec F S1x1024x2048 .f32) (x4 : Vec F S1x1024x1024 .f32) :
    { L : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E (cc0__moe_block i arg2 harg2 arg3 harg3 arg4 harg4 arg5 harg5 arg6 harg6 arg7 harg7) K } := by
  refine ⟨?_, fun E K => ?run⟩
  case run =>
    simp only [cc0__moe_block_eq_skeleton]; unfold cc0__moe_block_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

set_option maxHeartbeats 4000000 in
/-- A LATER EXPERT of a token block (first branch not taken, second taken). The output buffer is read before it is
    overwritten, so it is taken at known contents `xo` — what the point before left. -/
noncomputable def runLater (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (hc1 : ¬ k0_cond1 i = 1#1) (hc2 : k0_cond2 i = 1#1)
    (x0 : Vec F S512x2 .i32) (x1 : Vec F S512x2 .f32) (x2 : Vec F S512x1024 .f32) (x3 : Vec F S1x1024x2048 .f32) (x4 : Vec F S1x1024x1024 .f32)
    (xo : Vec F S512x1024 .f32) :
    { L : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xo
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E (cc0__moe_block i arg2 harg2 arg3 harg3 arg4 harg4 arg5 harg5 arg6 harg6 arg7 harg7) K } := by
  refine ⟨?_, fun E K => ?run⟩
  case run =>
    simp only [cc0__moe_block_eq_skeleton]; unfold cc0__moe_block_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.Body

end
-- ==== Proof.BitsBody.lean ====
/-
  The frame of the routed mixture-of-experts kernel: what the output block's staging buffer holds after every grid point,
  the pipeline's proof data, the body obligation at a generic point, and the run of the whole program.

  After point t = 8·b + e the output buffer holds the contributions of experts 0 … e for token block b, summed from the
  left: at e = 0 the body overwrites the buffer (whatever it held), at e > 0 it adds to what point t − 1 left — the
  buffer is written back to the array only after the last expert (t ≡ 7 mod 8), so between those points it is kept.
-/
import proofs.«116809_g77670188581355_cont_9to1_m_704_5_alg».proof.Proof.BitsRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output buffer -/

/-- The first expert's stores cover the whole output block. -/
theorem coverFirst (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (hc1 : k0_cond1 i = 1#1) (hc2 : ¬ k0_cond2 i = 1#1)
    (x0 : Vec F S512x2 .i32) (x1 : Vec F S512x2 .f32) (x2 : Vec F S512x1024 .f32) (x3 : Vec F S1x1024x2048 .f32) (x4 : Vec F S1x1024x1024 .f32) (y : S512x1024.Idx) :
    ∃ pc ∈ (runFirst c i arg2 harg2 arg3 harg3 arg4 harg4 arg5 harg5 arg6 harg6 arg7 harg7 hc1 hc2 x0 x1 x2 x3 x4).1, y ∈ pc.1.set :=
  View.cover_of_tiledL (runFirst c i arg2 harg2 arg3 harg3 arg4 harg4 arg5 harg5 arg6 harg6 arg7 harg7 hc1 hc2 x0 x1 x2 x3 x4).1 S512x1024.size (by sl_kernel_rfl) y

/-- What the first expert leaves in the output buffer: its pieces read back. -/
def outFirst (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (hc1 : k0_cond1 i = 1#1) (hc2 : ¬ k0_cond2 i = 1#1)
    (x0 : Vec F S512x2 .i32) (x1 : Vec F S512x2 .f32) (x2 : Vec F S512x1024 .f32) (x3 : Vec F S1x1024x2048 .f32) (x4 : Vec F S1x1024x1024 .f32) : Vec F S512x1024 .f32 :=
  outView.read (Elt F) (outView.writes (Elt F) outView.junk (runFirst c i arg2 harg2 arg3 harg3 arg4 harg4 arg5 harg5 arg6 harg6 arg7 harg7 hc1 hc2 x0 x1 x2 x3 x4).1)

/-- A later expert's stores cover the whole output block. -/
theorem coverLater (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (hc1 : ¬ k0_cond1 i = 1#1) (hc2 : k0_cond2 i = 1#1)
    (x0 : Vec F S512x2 .i32) (x1 : Vec F S512x2 .f32) (x2 : Vec F S512x1024 .f32) (x3 : Vec F S1x1024x2048 .f32) (x4 : Vec F S1x1024x1024 .f32) (xo : Vec F S512x1024 .f32) (y : S512x1024.Idx) :
    ∃ pc ∈ (runLater c i arg2 harg2 arg3 harg3 arg4 harg4 arg5 harg5 arg6 harg6 arg7 harg7 hc1 hc2 x0 x1 x2 x3 x4 xo).1, y ∈ pc.1.set :=
  View.cover_of_tiledL (runLater c i arg2 harg2 arg3 harg3 arg4 harg4 arg5 harg5 arg6 harg6 arg7 harg7 hc1 hc2 x0 x1 x2 x3 x4 xo).1 S512x1024.size (by sl_kernel_rfl) y

/-- What a later expert leaves in the output buffer, over what it found there (`xo`). -/
def outLater (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (hc1 : ¬ k0_cond1 i = 1#1) (hc2 : k0_cond2 i = 1#1)
    (x0 : Vec F S512x2 .i32) (x1 : Vec F S512x2 .f32) (x2 : Vec F S512x1024 .f32) (x3 : Vec F S1x1024x2048 .f32) (x4 : Vec F S1x1024x1024 .f32) (xo : Vec F S512x1024 .f32) : Vec F S512x1024 .f32 :=
  outView.read (Elt F) (outView.writes (Elt F) outView.junk (runLater c i arg2 harg2 arg3 harg3 arg4 harg4 arg5 harg5 arg6 harg6 arg7 harg7 hc1 hc2 x0 x1 x2 x3 x4 xo).1)

/-! ## The output buffer after each point -/

/-- THE ACCUMULATION: the output buffer after the body at position `n`. At a first expert the buffer is overwritten, at a
    later one the body adds to what position `n − 1` left. -/
def outsAt (c : Dev nD) : (n : ℕ) → n < cfg0.N → Vec F S512x1024 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩)
      ((first_iff ⟨0, hn⟩).mpr (Nat.zero_mod _)) (fun h => (later_iff ⟨0, hn⟩).mp h (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 8 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩)
        ((first_iff ⟨n + 1, hn⟩).mpr h0) (fun h => (later_iff ⟨n + 1, hn⟩).mp h h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩)
        (fun h => h0 ((first_iff ⟨n + 1, hn⟩).mp h)) ((later_iff ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩)
        (outsAt c n (Nat.lt_of_succ_lt hn))

/-- `outsAt` at a first expert. -/
theorem outsAt_first (c : Dev nD) (t : Fin cfg0.N) (h0 : t.val % 8 = 0) :
    outsAt m c t.val t.isLt = outFirst c (grid0.coords t) (ms0 t) (hs0 t) (ms1 t) (hs1 t) (ms2 t) (hs2 t) (ms3 t) (hs3 t) (ms4 t) (hs4 t) (ms5 t) (hs5 t)
      ((first_iff t).mpr h0) (fun h => (later_iff t).mp h h0) (iblk m c 0 t) (iblk m c 1 t) (iblk m c 2 t) (iblk m c 3 t) (iblk m c 4 t) := by
  obtain ⟨n, hn⟩ := t
  cases n with
  | zero => exact rfl
  | succ n => exact (dif_pos h0).trans rfl

/-- `outsAt` at a later expert: over what the point before left. -/
theorem outsAt_later (c : Dev nD) (t : Fin cfg0.N) (h0 : ¬ t.val % 8 = 0) :
    outsAt m c t.val t.isLt = outLater c (grid0.coords t) (ms0 t) (hs0 t) (ms1 t) (hs1 t) (ms2 t) (hs2 t) (ms3 t) (hs3 t) (ms4 t) (hs4 t) (ms5 t) (hs5 t)
      (fun h => h0 ((first_iff t).mp h)) ((later_iff t).mpr h0) (iblk m c 0 t) (iblk m c 1 t) (iblk m c 2 t) (iblk m c 3 t) (iblk m c 4 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body each input buffer at its block and
    the output buffer at `outsAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outsAt m c t.val t.isLt) := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The output window is live at every grid point: one of the two branches stores into it whatever the expert index. -/
theorem out_live (i : grid0.Coords) : cfg0.idle 5 i = false :=
  (by decide +kernel : ∀ e : Fin 8,
      (!(Scalar.cmpi .ne (Scalar.extui (Scalar.cmpi .eq (BitVec.ofNat 32 e.val) 0#32)) 0#32 == 1#1)
        && !(Scalar.cmpi .ne (Scalar.extui (Scalar.cmpi .sgt (BitVec.ofNat 32 e.val) 0#32)) 0#32 == 1#1)) = false) (i 1)

/-- At a later expert the output buffer holds what the body left at the point before: the point is not the first, and
    the buffer was not written back between (that happens only after a block's last expert). -/
theorem before_5_later (c : Dev nD) (t : Fin cfg0.N) (h0 : ¬ t.val % 8 = 0) (d) :
    (dats m 0 c).before 5 t d = (outsAt m c (t.val - 1) (Nat.lt_of_le_of_lt (Nat.sub_le _ _) t.isLt)) := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    out_live (fun _ _ => rfl)]
  dsimp only [dats]

/-! ## The body obligation at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' buffers hold their blocks; the closed forms say which case the point is in; at a
    later expert the output buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  have hN : t.val < 32 := lt_of_lt_of_eq t.isLt (show cfg0.N = 32 from N_0)
  by_cases h0 : t.val % 8 = 0
  · rw [outsAt_first m c t h0]
    unfold outFirst
    iintro ⟨HΦ, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ ((first_iff t).mpr h0) (fun h => (later_iff t).mp h h0)
      (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirst c _ _ _ _ _ _ _ _ _ _ _ _ _ _ _ _ _ _ _ _)
  · rw [outsAt_later m c t h0]
    simp only [before_5_later m c t h0]
    unfold outLater
    iintro ⟨HΦ, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ (fun h => h0 ((first_iff t).mp h)) ((later_iff t).mpr h0)
      (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverLater c _ _ _ _ _ _ _ _ _ _ _ _ _ _ _ _ _ _ _ _ _)

set_option maxHeartbeats 1000000 in
/-- The library's body obligation, at every point: the windows one by one; the output window is live at the point, so
    the obligation's case split on idleness takes the live branch. -/
theorem body_obligation (c : Dev nD) : BodyObligation (dats (F := F) m 0 c) (defs₀ (F := F)) Variants.none () Set.univ := fun t => by
  rw [bigSep_W0, bigSep_W0]
  rw [out_live (cfg0.grid.coords t)]
  exact sound_body m c t

/-! ## The run and the frame -/

set_option backward.isDefEq.respectTransparency.types false in
/-- Every weakly fair execution of the program terminates, and every final state has each array of the pipeline at what
    the proof data says and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs to the end, faults nowhere, and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.IdealRuns.lean ====
/-
  The kernel body of the routed mixture-of-experts layer, run once in each of the two situations a grid point can be in.

  The grid is 4 token blocks × 8 experts, the expert the fast axis; point t handles expert t mod 8 of token block t / 8.
  The body computes the expert's weighted contribution for the block and either STORES it into the output block (first
  expert, t ≡ 0 mod 8) or ADDS it to what the output block holds (every later expert). The two branch conditions of the
  body are decided over the grid in closed form here, and the body is run symbolically in each case on arbitrary whole
  staging buffers: the inputs are returned as found, the output buffer ends with the list of pieces the run stored.
-/
import proofs.«116809_g77670188581355_cont_9to1_m_704_5_alg».proof.Proof.Gen.KernelIdeal.Frame
import proofs.«116809_g77670188581355_cont_9to1_m_704_5_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The body's first branch (the expert index is 0) is taken exactly at the points ≡ 0 (mod 8). -/
theorem first_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The body's second branch (the expert index is positive) is taken exactly at the other points. -/
theorem later_iff : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-! ## The staging buffers at a point -/

/-- One staging buffer of the output window, through which its contents are stated. -/
abbrev outView : View sig .tc .vmem S512x1024 .f32 := (Memref.whole cc0_stg5_0 : Memref sig .tc .vmem S512x1024 .f32).view

abbrev ms0 (t : Fin cfg0.N) : Memref sig .tc .vmem S512x2 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1024 .f32 := win0_5.stage (cfg0.slots t 5)
abbrev hs5 (t : Fin cfg0.N) : (ms5 t).IsWhole := hstage0_5 ((cfg0.slots t 5).cast nbuf0_5)

/-! ## The body in each case -/

set_option maxHeartbeats 4000000 in
/-- FIRST EXPERT of a token block (first branch taken, second not). On whole staging buffers — the five inputs at
    contents `x0 … x4`, the output buffer at anything — the body runs to the end, hands the inputs back as found, and
    leaves the output buffer with the pieces `L` it stored (found by the symbolic run). -/
noncomputable def runFirst (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (hc1 : k0_cond1 i = 1#1) (hc2 : ¬ k0_cond2 i = 1#1)
    (x0 : Vec F S512x2 .i32) (x1 : Vec F S512x2 .f32) (x2 : Vec F S512x1024 .f32) (x3 : Vec F S1x1024x2048 .f32) (x4 : Vec F S1x1024x1024 .f32) :
    { L : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E (cc0__moe_block i arg2 harg2 arg3 harg3 arg4 harg4 arg5 harg5 arg6 harg6 arg7 harg7) K } := by
  refine ⟨?_, fun E K => ?run⟩
  case run =>
    simp only [cc0__moe_block_eq_skeleton]; unfold cc0__moe_block_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

set_option maxHeartbeats 4000000 in
/-- A LATER EXPERT of a token block (first branch not taken, second taken). The output buffer is read before it is
    overwritten, so it is taken at known contents `xo` — what the point before left. -/
noncomputable def runLater (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (hc1 : ¬ k0_cond1 i = 1#1) (hc2 : k0_cond2 i = 1#1)
    (x0 : Vec F S512x2 .i32) (x1 : Vec F S512x2 .f32) (x2 : Vec F S512x1024 .f32) (x3 : Vec F S1x1024x2048 .f32) (x4 : Vec F S1x1024x1024 .f32)
    (xo : Vec F S512x1024 .f32) :
    { L : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xo
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E (cc0__moe_block i arg2 harg2 arg3 harg3 arg4 harg4 arg5 harg5 arg6 harg6 arg7 harg7) K } := by
  refine ⟨?_, fun E K => ?run⟩
  case run =>
    simp only [cc0__moe_block_eq_skeleton]; unfold cc0__moe_block_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Body

end
-- ==== Proof.IdealBody.lean ====
/-
  The frame of the routed mixture-of-experts kernel: what the output block's staging buffer holds after every grid point,
  the pipeline's proof data, the body obligation at a generic point, and the run of the whole program.

  After point t = 8·b + e the output buffer holds the contributions of experts 0 … e for token block b, summed from the
  left: at e = 0 the body overwrites the buffer (whatever it held), at e > 0 it adds to what point t − 1 left — the
  buffer is written back to the array only after the last expert (t ≡ 7 mod 8), so between those points it is kept.
-/
import proofs.«116809_g77670188581355_cont_9to1_m_704_5_alg».proof.Proof.IdealRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output buffer -/

/-- The first expert's stores cover the whole output block. -/
theorem coverFirst (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (hc1 : k0_cond1 i = 1#1) (hc2 : ¬ k0_cond2 i = 1#1)
    (x0 : Vec F S512x2 .i32) (x1 : Vec F S512x2 .f32) (x2 : Vec F S512x1024 .f32) (x3 : Vec F S1x1024x2048 .f32) (x4 : Vec F S1x1024x1024 .f32) (y : S512x1024.Idx) :
    ∃ pc ∈ (runFirst c i arg2 harg2 arg3 harg3 arg4 harg4 arg5 harg5 arg6 harg6 arg7 harg7 hc1 hc2 x0 x1 x2 x3 x4).1, y ∈ pc.1.set :=
  View.cover_of_tiledL (runFirst c i arg2 harg2 arg3 harg3 arg4 harg4 arg5 harg5 arg6 harg6 arg7 harg7 hc1 hc2 x0 x1 x2 x3 x4).1 S512x1024.size (by sl_kernel_rfl) y

/-- What the first expert leaves in the output buffer: its pieces read back. -/
def outFirst (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (hc1 : k0_cond1 i = 1#1) (hc2 : ¬ k0_cond2 i = 1#1)
    (x0 : Vec F S512x2 .i32) (x1 : Vec F S512x2 .f32) (x2 : Vec F S512x1024 .f32) (x3 : Vec F S1x1024x2048 .f32) (x4 : Vec F S1x1024x1024 .f32) : Vec F S512x1024 .f32 :=
  outView.read (Elt F) (outView.writes (Elt F) outView.junk (runFirst c i arg2 harg2 arg3 harg3 arg4 harg4 arg5 harg5 arg6 harg6 arg7 harg7 hc1 hc2 x0 x1 x2 x3 x4).1)

/-- A later expert's stores cover the whole output block. -/
theorem coverLater (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (hc1 : ¬ k0_cond1 i = 1#1) (hc2 : k0_cond2 i = 1#1)
    (x0 : Vec F S512x2 .i32) (x1 : Vec F S512x2 .f32) (x2 : Vec F S512x1024 .f32) (x3 : Vec F S1x1024x2048 .f32) (x4 : Vec F S1x1024x1024 .f32) (xo : Vec F S512x1024 .f32) (y : S512x1024.Idx) :
    ∃ pc ∈ (runLater c i arg2 harg2 arg3 harg3 arg4 harg4 arg5 harg5 arg6 harg6 arg7 harg7 hc1 hc2 x0 x1 x2 x3 x4 xo).1, y ∈ pc.1.set :=
  View.cover_of_tiledL (runLater c i arg2 harg2 arg3 harg3 arg4 harg4 arg5 harg5 arg6 harg6 arg7 harg7 hc1 hc2 x0 x1 x2 x3 x4 xo).1 S512x1024.size (by sl_kernel_rfl) y

/-- What a later expert leaves in the output buffer, over what it found there (`xo`). -/
def outLater (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (hc1 : ¬ k0_cond1 i = 1#1) (hc2 : k0_cond2 i = 1#1)
    (x0 : Vec F S512x2 .i32) (x1 : Vec F S512x2 .f32) (x2 : Vec F S512x1024 .f32) (x3 : Vec F S1x1024x2048 .f32) (x4 : Vec F S1x1024x1024 .f32) (xo : Vec F S512x1024 .f32) : Vec F S512x1024 .f32 :=
  outView.read (Elt F) (outView.writes (Elt F) outView.junk (runLater c i arg2 harg2 arg3 harg3 arg4 harg4 arg5 harg5 arg6 harg6 arg7 harg7 hc1 hc2 x0 x1 x2 x3 x4 xo).1)

/-! ## The output buffer after each point -/

/-- THE ACCUMULATION: the output buffer after the body at position `n`. At a first expert the buffer is overwritten, at a
    later one the body adds to what position `n − 1` left. -/
def outsAt (c : Dev nD) : (n : ℕ) → n < cfg0.N → Vec F S512x1024 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩)
      ((first_iff ⟨0, hn⟩).mpr (Nat.zero_mod _)) (fun h => (later_iff ⟨0, hn⟩).mp h (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 8 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩)
        ((first_iff ⟨n + 1, hn⟩).mpr h0) (fun h => (later_iff ⟨n + 1, hn⟩).mp h h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩)
        (fun h => h0 ((first_iff ⟨n + 1, hn⟩).mp h)) ((later_iff ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩)
        (outsAt c n (Nat.lt_of_succ_lt hn))

/-- `outsAt` at a first expert. -/
theorem outsAt_first (c : Dev nD) (t : Fin cfg0.N) (h0 : t.val % 8 = 0) :
    outsAt m c t.val t.isLt = outFirst c (grid0.coords t) (ms0 t) (hs0 t) (ms1 t) (hs1 t) (ms2 t) (hs2 t) (ms3 t) (hs3 t) (ms4 t) (hs4 t) (ms5 t) (hs5 t)
      ((first_iff t).mpr h0) (fun h => (later_iff t).mp h h0) (iblk m c 0 t) (iblk m c 1 t) (iblk m c 2 t) (iblk m c 3 t) (iblk m c 4 t) := by
  obtain ⟨n, hn⟩ := t
  cases n with
  | zero => exact rfl
  | succ n => exact (dif_pos h0).trans rfl

/-- `outsAt` at a later expert: over what the point before left. -/
theorem outsAt_later (c : Dev nD) (t : Fin cfg0.N) (h0 : ¬ t.val % 8 = 0) :
    outsAt m c t.val t.isLt = outLater c (grid0.coords t) (ms0 t) (hs0 t) (ms1 t) (hs1 t) (ms2 t) (hs2 t) (ms3 t) (hs3 t) (ms4 t) (hs4 t) (ms5 t) (hs5 t)
      (fun h => h0 ((first_iff t).mp h)) ((later_iff t).mpr h0) (iblk m c 0 t) (iblk m c 1 t) (iblk m c 2 t) (iblk m c 3 t) (iblk m c 4 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body each input buffer at its block and
    the output buffer at `outsAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outsAt m c t.val t.isLt) := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The output window is live at every grid point: one of the two branches stores into it whatever the expert index. -/
theorem out_live (i : grid0.Coords) : cfg0.idle 5 i = false :=
  (by decide +kernel : ∀ e : Fin 8,
      (!(Scalar.cmpi .ne (Scalar.extui (Scalar.cmpi .eq (BitVec.ofNat 32 e.val) 0#32)) 0#32 == 1#1)
        && !(Scalar.cmpi .ne (Scalar.extui (Scalar.cmpi .sgt (BitVec.ofNat 32 e.val) 0#32)) 0#32 == 1#1)) = false) (i 1)

/-- At a later expert the output buffer holds what the body left at the point before: the point is not the first, and
    the buffer was not written back between (that happens only after a block's last expert). -/
theorem before_5_later (c : Dev nD) (t : Fin cfg0.N) (h0 : ¬ t.val % 8 = 0) (d) :
    (dats m 0 c).before 5 t d = (outsAt m c (t.val - 1) (Nat.lt_of_le_of_lt (Nat.sub_le _ _) t.isLt)) := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    out_live (fun _ _ => rfl)]
  dsimp only [dats]

/-! ## The body obligation at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' buffers hold their blocks; the closed forms say which case the point is in; at a
    later expert the output buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  have hN : t.val < 32 := lt_of_lt_of_eq t.isLt (show cfg0.N = 32 from N_0)
  by_cases h0 : t.val % 8 = 0
  · rw [outsAt_first m c t h0]
    unfold outFirst
    iintro ⟨HΦ, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ ((first_iff t).mpr h0) (fun h => (later_iff t).mp h h0)
      (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirst c _ _ _ _ _ _ _ _ _ _ _ _ _ _ _ _ _ _ _ _)
  · rw [outsAt_later m c t h0]
    simp only [before_5_later m c t h0]
    unfold outLater
    iintro ⟨HΦ, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ (fun h => h0 ((first_iff t).mp h)) ((later_iff t).mpr h0)
      (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverLater c _ _ _ _ _ _ _ _ _ _ _ _ _ _ _ _ _ _ _ _ _)

set_option maxHeartbeats 1000000 in
/-- The library's body obligation, at every point: the windows one by one; the output window is live at the point, so
    the obligation's case split on idleness takes the live branch. -/
theorem body_obligation (c : Dev nD) : BodyObligation (dats (F := F) m 0 c) (defs₀ (F := F)) Variants.none () Set.univ := fun t => by
  rw [bigSep_W0, bigSep_W0]
  rw [out_live (cfg0.grid.coords t)]
  exact sound_body m c t

/-! ## The run and the frame -/

set_option backward.isDefEq.respectTransparency.types false in
/-- Every weakly fair execution of the program terminates, and every final state has each array of the pipeline at what
    the proof data says and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs to the end, faults nowhere, and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.IdealPieces.lean ====
/-
  What the two cases of the kernel body leave in the output block's buffer, as the body's own arithmetic: the first
  expert's run stores one piece, the whole block, holding the body's stored value of the five blocks it loaded; a
  later expert's run stores the same over what the buffer held. A load of a whole buffer reads the buffer's contents.
-/
import proofs.«116809_g77670188581355_cont_9to1_m_704_5_alg».proof.Proof.IdealBody
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first expert leaves the body's stored value for the blocks it loaded: one store of the whole block. -/
theorem outFirst_eq (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (hc1 : k0_cond1 i = 1#1) (hc2 : ¬ k0_cond2 i = 1#1)
    (x0 : Vec F S512x2 .i32) (x1 : Vec F S512x2 .f32) (x2 : Vec F S512x1024 .f32) (x3 : Vec F S1x1024x2048 .f32) (x4 : Vec F S1x1024x1024 .f32) :
    outFirst c i arg2 harg2 arg3 harg3 arg4 harg4 arg5 harg5 arg6 harg6 arg7 harg7 hc1 hc2 x0 x1 x2 x3 x4 = k0_pay1 i x2 x3 x4 x0 x1 := by
  unfold outFirst
  rw [View.read_writes_eq_canon _ _ _ (coverFirst c i arg2 harg2 arg3 harg3 arg4 harg4 arg5 harg5 arg6 harg6 arg7 harg7 hc1 hc2 x0 x1 x2 x3 x4)]
  unfold runFirst
  dsimp only
  rw [View.canon_unit_zero hz2]
  simp only [View.readAt_eq_ld, harg2.read_unread, harg3.read_unread, harg4.read_unread, harg5.read_unread, harg6.read_unread,
    View.ld_unit_zero (S := S512x1024) hz2, View.ld_unit_zero (S := S512x2) hz2,
    View.ld_unit_zero (S := S1x1024x2048) hz3, View.ld_unit_zero (S := S1x1024x1024) hz3]

/-- A later expert leaves what the buffer held plus the body's stored value. -/
theorem outLater_eq (c : Dev nD) (i : grid0.Coords)
    (arg2 : Memref sig .tc .vmem S512x2 .i32) (harg2 : arg2.IsWhole) (arg3 : Memref sig .tc .vmem S512x2 .f32) (harg3 : arg3.IsWhole)
    (arg4 : Memref sig .tc .vmem S512x1024 .f32) (harg4 : arg4.IsWhole) (arg5 : Memref sig .tc .vmem S1x1024x2048 .f32) (harg5 : arg5.IsWhole)
    (arg6 : Memref sig .tc .vmem S1x1024x1024 .f32) (harg6 : arg6.IsWhole) (arg7 : Memref sig .tc .vmem S512x1024 .f32) (harg7 : arg7.IsWhole)
    (hc1 : ¬ k0_cond1 i = 1#1) (hc2 : k0_cond2 i = 1#1)
    (x0 : Vec F S512x2 .i32) (x1 : Vec F S512x2 .f32) (x2 : Vec F S512x1024 .f32) (x3 : Vec F S1x1024x2048 .f32) (x4 : Vec F S1x1024x1024 .f32) (xo : Vec F S512x1024 .f32) :
    outLater c i arg2 harg2 arg3 harg3 arg4 harg4 arg5 harg5 arg6 harg6 arg7 harg7 hc1 hc2 x0 x1 x2 x3 x4 xo = k0_pay2 i x2 x3 x4 x0 x1 xo := by
  unfold outLater
  rw [View.read_writes_eq_canon _ _ _ (coverLater c i arg2 harg2 arg3 harg3 arg4 harg4 arg5 harg5 arg6 harg6 arg7 harg7 hc1 hc2 x0 x1 x2 x3 x4 xo)]
  unfold runLater
  dsimp only
  rw [View.canon_unit_zero hz2]
  simp only [View.readAt_eq_ld, harg2.read_unread, harg3.read_unread, harg4.read_unread, harg5.read_unread, harg6.read_unread, harg7.read_unread,
    View.ld_unit_zero (S := S512x1024) hz2, View.ld_unit_zero (S := S512x2) hz2,
    View.ld_unit_zero (S := S1x1024x2048) hz3, View.ld_unit_zero (S := S1x1024x1024) hz3]

end Cert.KernelIdeal.Body

end
-- ==== Proof.IdealBlocks.lean ====
/-
  The six windows' blocks at a grid point, read at an index, as entries of the argument arrays.

  Point t of the 4 × 8 grid is expert t mod 8 of token block t / 8. The hidden-state, routing-index and routing-weight
  windows hold rows 512·(t/8) … 512·(t/8) + 511 of their arrays; the two weight windows hold slab t mod 8 of theirs.
  The hidden states reach the kernel flattened from [1, 2048, 1024] to [2048, 1024] by a host reshape before the call,
  which keeps row-major positions, so row r of the flattened array is row (0, r) of the argument.
-/
import proofs.«116809_g77670188581355_cont_9to1_m_704_5_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- Point `t` is expert `t mod 8` of token block `t / 8`. -/
theorem coords_val : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The printed index maps over the grid: the token windows follow the token block, the weight windows the expert. -/
theorem index_facts : ∀ t : Fin cfg0.N,
    win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = t.val / 8 ∧ win0_2.index t (1 : Fin 2) = 0
    ∧ win0_3.index t (0 : Fin 3) = t.val % 8 ∧ win0_3.index t (1 : Fin 3) = 0 ∧ win0_3.index t (2 : Fin 3) = 0
    ∧ win0_4.index t (0 : Fin 3) = t.val % 8 ∧ win0_4.index t (1 : Fin 3) = 0 ∧ win0_4.index t (2 : Fin 3) = 0
    ∧ win0_5.index t (0 : Fin 2) = t.val / 8 ∧ win0_5.index t (1 : Fin 2) = 0 :=
  (by decide +kernel : ∀ t : Fin grid0.N,
    win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = t.val / 8 ∧ win0_2.index t (1 : Fin 2) = 0
    ∧ win0_3.index t (0 : Fin 3) = t.val % 8 ∧ win0_3.index t (1 : Fin 3) = 0 ∧ win0_3.index t (2 : Fin 3) = 0
    ∧ win0_4.index t (0 : Fin 3) = t.val % 8 ∧ win0_4.index t (1 : Fin 3) = 0 ∧ win0_4.index t (2 : Fin 3) = 0
    ∧ win0_5.index t (0 : Fin 2) = t.val / 8 ∧ win0_5.index t (1 : Fin 2) = 0)

theorem lt_N (t : Fin cfg0.N) : t.val < 32 := lt_of_lt_of_eq t.isLt (show cfg0.N = 32 from N_0)

/-- The flattened hidden states as the region finds them: the host reshape of the argument. -/
theorem V_flat (c : Dev nD) :
    (V m c main_v0 : S2048x1024.Idx → EReal)
      = shapeCast S2048x1024 (m ((c : Thread nD τ).loc main_arg0)) shapeCasts_S1x2048x1024_S2048x1024 := by
  show StableHlo.after hostOps0 (fun b => m (c, b)) (Proc.devRef .tc main_v0) = _
  after_results
  rfl

/-- Row `r` of the flattened hidden states is row (0, r) of the argument. -/
theorem V_flat_apply (c : Dev nD) (r : Fin 2048) (h : Fin 1024) :
    (V m c main_v0 : S2048x1024.Idx → EReal) (ix2 r h) = m ((c : Thread nD τ).loc main_arg0) (ix3 (0 : Fin 1) r h) := by
  rw [V_flat]
  exact shapeCast_apply (m ((c : Thread nD τ).loc main_arg0)) shapeCasts_S1x2048x1024_S2048x1024 (ix2 r h) (ix3 (0 : Fin 1) r h)
    (by show (S1x2048x1024.rowMajor (ix3 (0 : Fin 1) r h)).val = (S2048x1024.rowMajor (ix2 r h)).val
        rewrite [Shape.rowMajor_val_three, Shape.rowMajor_val_two]; show (0 * 2048 + r.val) * 1024 + h.val = r.val * 1024 + h.val; omega)

/-- The hidden-state window at point `t`: row `p` of the block is row 512·(t/8) + p of the token array. -/
theorem hidden_blk (c : Dev nD) (t : Fin cfg0.N) (p : Fin 512) (h : Fin 1024) :
    iblk m c 2 t (ix2 p h)
      = m ((c : Thread nD τ).loc main_arg0) (ix3 (0 : Fin 1) ⟨512 * (t.val / 8) + p.val, by have := lt_N t; omega⟩ h) := by
  have hN := lt_N t
  obtain ⟨-, -, -, -, e0, e1, -⟩ := index_facts t
  rw [← V_flat_apply m c]
  unfold iblk
  rw [View.read_apply]
  show V m c main_v0 (((cfg0.win 2).blk t).view.emb (ix2 p h)) = V m c main_v0 _
  refine congrArg _ (funext fun a => Fin.ext ?_)
  match a with
  | ⟨0, _⟩ => show win0_2.index t (0 : Fin 2) * 512 + 1 * p.val = 512 * (t.val / 8) + p.val; omega
  | ⟨1, _⟩ => show win0_2.index t (1 : Fin 2) * 1024 + 1 * h.val = h.val; omega

/-- The routing-index window at point `t`. -/
theorem index_blk (c : Dev nD) (t : Fin cfg0.N) (p : Fin 512) (s : Fin 2) :
    iblk m c 0 t (ix2 p s)
      = m ((c : Thread nD τ).loc main_arg3) (ix2 ⟨512 * (t.val / 8) + p.val, by have := lt_N t; omega⟩ s) := by
  have hN := lt_N t
  obtain ⟨e0, e1, -⟩ := index_facts t
  rw [← V_main_arg3 m c]
  unfold iblk
  rw [View.read_apply]
  show V m c main_arg3 (((cfg0.win 0).blk t).view.emb (ix2 p s)) = V m c main_arg3 _
  refine congrArg _ (funext fun a => Fin.ext ?_)
  match a with
  | ⟨0, _⟩ => show win0_0.index t (0 : Fin 2) * 512 + 1 * p.val = 512 * (t.val / 8) + p.val; omega
  | ⟨1, _⟩ => show win0_0.index t (1 : Fin 2) * 2 + 1 * s.val = s.val; omega

/-- The routing-weight window at point `t`. -/
theorem weight_blk (c : Dev nD) (t : Fin cfg0.N) (p : Fin 512) (s : Fin 2) :
    iblk m c 1 t (ix2 p s)
      = m ((c : Thread nD τ).loc main_arg4) (ix2 ⟨512 * (t.val / 8) + p.val, by have := lt_N t; omega⟩ s) := by
  have hN := lt_N t
  obtain ⟨-, -, e0, e1, -⟩ := index_facts t
  rw [← V_main_arg4 m c]
  unfold iblk
  rw [View.read_apply]
  show V m c main_arg4 (((cfg0.win 1).blk t).view.emb (ix2 p s)) = V m c main_arg4 _
  refine congrArg _ (funext fun a => Fin.ext ?_)
  match a with
  | ⟨0, _⟩ => show win0_1.index t (0 : Fin 2) * 512 + 1 * p.val = 512 * (t.val / 8) + p.val; omega
  | ⟨1, _⟩ => show win0_1.index t (1 : Fin 2) * 2 + 1 * s.val = s.val; omega

/-- The gate-up window at point `t`: the one slab it holds is expert `t mod 8`'s. -/
theorem gateup_blk (c : Dev nD) (t : Fin cfg0.N) (h : Fin 1024) (n : Fin 2048) :
    iblk m c 3 t (ix3 (0 : Fin 1) h n)
      = m ((c : Thread nD τ).loc main_arg1) (ix3 (⟨t.val % 8, by omega⟩ : Fin 8) h n) := by
  obtain ⟨-, -, -, -, -, -, e0, e1, e2, -⟩ := index_facts t
  rw [← V_main_arg1 m c]
  unfold iblk
  rw [View.read_apply]
  show V m c main_arg1 (((cfg0.win 3).blk t).view.emb (ix3 (0 : Fin 1) h n)) = V m c main_arg1 _
  refine congrArg _ (funext fun a => Fin.ext ?_)
  match a with
  | ⟨0, _⟩ => show win0_3.index t (0 : Fin 3) * 1 + 1 * 0 = t.val % 8; omega
  | ⟨1, _⟩ => show win0_3.index t (1 : Fin 3) * 1024 + 1 * h.val = h.val; omega
  | ⟨2, _⟩ => show win0_3.index t (2 : Fin 3) * 2048 + 1 * n.val = n.val; omega

/-- The down window at point `t`: expert `t mod 8`'s slab. -/
theorem down_blk (c : Dev nD) (t : Fin cfg0.N) (k : Fin 1024) (q : Fin 1024) :
    iblk m c 4 t (ix3 (0 : Fin 1) k q)
      = m ((c : Thread nD τ).loc main_arg2) (ix3 (⟨t.val % 8, by omega⟩ : Fin 8) k q) := by
  obtain ⟨-, -, -, -, -, -, -, -, -, e0, e1, e2, -⟩ := index_facts t
  rw [← V_main_arg2 m c]
  unfold iblk
  rw [View.read_apply]
  show V m c main_arg2 (((cfg0.win 4).blk t).view.emb (ix3 (0 : Fin 1) k q)) = V m c main_arg2 _
  refine congrArg _ (funext fun a => Fin.ext ?_)
  match a with
  | ⟨0, _⟩ => show win0_4.index t (0 : Fin 3) * 1 + 1 * 0 = t.val % 8; omega
  | ⟨1, _⟩ => show win0_4.index t (1 : Fin 3) * 1024 + 1 * k.val = k.val; omega
  | ⟨2, _⟩ => show win0_4.index t (2 : Fin 3) * 1024 + 1 * q.val = q.val; omega

end Cert.KernelIdeal.Blocks

end
-- ==== Proof.BlockContrib.lean ====
/-
  One expert's weighted contribution for one token block, as a function of the six blocks the kernel body loads,
  entry by entry over the extended reals — the block-local counterpart of the layer's specification.

  For row p of the token block and the expert whose index is `e`:
    projB p n  = ∑ h, x[p, h] · Wgu[0, h, n]        (the expert's gate-up matrix is the one slab the block holds)
    actB p k   = g · logistic g · u,  g = projB p k,  u = projB p (1024 + k)
    contribB   = (∑ k, actB p k · Wd[0, k, q]) · (0 + ∑ s < 2, (idx[p, s] = e ? w[p, s] : 0))
-/
import proofs.«116809_g77670188581355_cont_9to1_m_704_5_alg».proof.Proof.Gen.KernelIdeal.Skeleton
import Idealize.ShloMosaic.PureOps.Ideal
import Idealize.ShloMosaic.PureOps.Ideal.Laws
import Idealize.ShloMosaic.Lib.ValueIdx

noncomputable section

namespace Cert.KernelIdeal.Contrib

open Cert.KernelIdeal Idealize.ShloMosaic Idealize.ShloMosaic.ValueIdx

/-- Row `p` of the token block against column `n` of the expert's gate-up slab. -/
def projB (v0 : Vec Ideal S512x1024 .f32) (v3 : Vec Ideal S1x1024x2048 .f32) (p : Fin 512) (n : Fin 2048) : EReal :=
  ∑ h : Fin 1024, v0 (ix2 p h) * v3 (ix3 (0 : Fin 1) h n)

/-- The gated activation at hidden unit `k`. -/
def actB (v0 : Vec Ideal S512x1024 .f32) (v3 : Vec Ideal S1x1024x2048 .f32) (p : Fin 512) (k : Fin 1024) : EReal :=
  projB v0 v3 p ⟨k.val, by omega⟩ * Ideal.logistic (projB v0 v3 p ⟨k.val, by omega⟩) * projB v0 v3 p ⟨1024 + k.val, by omega⟩

/-- The contribution of the expert numbered `e` at entry (p, q) of the block. -/
def contribB (e : ℕ) (v0 : Vec Ideal S512x1024 .f32) (v3 : Vec Ideal S1x1024x2048 .f32) (v13 : Vec Ideal S1x1024x1024 .f32)
    (v17 : Vec Ideal S512x2 .i32) (v20 : Vec Ideal S512x2 .f32) (p : Fin 512) (q : Fin 1024) : EReal :=
  (∑ k : Fin 1024, actB v0 v3 p k * v13 (ix3 (0 : Fin 1) k q))
    * (Ideal.ofBits .f32 0x00000000#32
        + ∑ s : Fin 2, Scalar.select (IntOp.cmpi .eq (v17 (ix2 p s)) (BitVec.ofNat 32 e)) (v20 (ix2 p s)) (Ideal.ofBits .f32 0x00000000#32))

end Cert.KernelIdeal.Contrib

end
-- ==== Proof.LibColumnCast.lean ====
/-
  A shape cast that appends a unit axis, read at an index.

  Casting a vector of length `a` to an `a × 1` column keeps row-major positions: position `i` of the vector is
  position `i * 1 + 0` of the column. So the column at `(i, u)` — `u` the only coordinate of the unit axis — is
  the vector at `i`. The same holds for casting a `1 × 1` matrix to a vector of length one.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array cast to `[1]` reads, at its one index, the operand at `(0, 0)`. -/
theorem shapeCast_11_1_apply (x : (⟨2, ![1, 1]⟩ : Shape).Idx → α) (h : (⟨2, ![1, 1]⟩ : Shape).ShapeCasts ⟨1, ![1]⟩)
    (u : Fin 1) : shapeCast ⟨1, ![1]⟩ x h (ix1 u) = x (ix2 (0 : Fin 1) (0 : Fin 1)) :=
  shapeCast_apply x h _ _ (by
    have hu : u.val = 0 := by omega
    rw [Shape.rowMajor_val_two, Shape.rowMajor_val_one]
    show 0 * 1 + 0 = u.val
    rw [hu])

end Cert.LibColumnCast
-- ==== Proof.LibColumnBroadcast.lean ====
/-
  One column broadcast over many.

  An `a × 1` column broadcast to `a × b` repeats, along each row, that row's one entry: the result at `(p, c)` is
  the column at `(p, 0)`, whatever the column coordinate `c`. (The companion of the row form, where a `1 × b` row
  is repeated down the rows.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.BlockContribAt.lean ====
/-
  The value the block body stores, read entry by entry over the extended reals.

  The stored array is a product of two arrays. The first is the expert's output for the token block: the rows against
  the gate-up slab, the gated activation of the two halves of the columns, and that against the down slab; a matrix
  product into the zero array is the plain sum over the shared axis, a change of float format is the identity, a cast to
  the same shape is the identity and a cast that drops the slab's unit axis reads (0, h, n) at (h, n). The second is each
  row's routing weight for this expert, repeated along the row: the sum over the two routing slots of the slot's weight
  where the slot names the expert and of the zero word's value elsewhere, cast to a column and broadcast over the
  columns. Each stage is named as a definition, the stored value is their product by unfolding alone, and each stage is
  then read at an index; the last two theorems state the result against the entrywise form.
-/
import proofs.«116809_g77670188581355_cont_9to1_m_704_5_alg».proof.Proof.BlockContrib
import proofs.«116809_g77670188581355_cont_9to1_m_704_5_alg».proof.Proof.LibColumnCast
import proofs.«116809_g77670188581355_cont_9to1_m_704_5_alg».proof.Proof.LibColumnBroadcast
import Idealize.ShloMosaic.Lib.ValueLayout

noncomputable section

namespace Cert.KernelIdeal.Contrib

open Cert.KernelIdeal Idealize.ShloMosaic Idealize.ShloMosaic.ValueIdx

/-! ## The body's value, stage by stage

The stored value is a product of two arrays: the expert's output for the block (two matrix products with the gated
activation between them) and, broadcast along each row, the row's routing weight for this expert. Each stage is
named here as the body computes it, and read at an index. -/

/-- The block's rows against the expert's gate-up slab: a [512, 2048] array. -/
def gateupV (v0 : Vec Ideal S512x1024 .f32) (v3 : Vec Ideal S1x1024x2048 .f32) : FVec Ideal S512x2048 .f32 :=
  matmul dot_S512x1024_S1024x2048_S512x2048_1_0_0_1_n_n none
    (truncf .bf16 (shapeCast S512x1024 v0 Gen.shapeCasts_S512x1024_S512x1024) Gen.bitsLt_bf16_f32)
    (truncf .bf16 (shapeCast S1024x2048 v3 Gen.shapeCasts_S1x1024x2048_S1024x2048) Gen.bitsLt_bf16_f32)
    (constant S512x2048 .f32 0x00000000#32)

/-- The gated activation: the left half of the columns times its logistic times the right half. -/
def actV (v0 : Vec Ideal S512x1024 .f32) (v3 : Vec Ideal S1x1024x2048 .f32) : FVec Ideal S512x1024 .f32 :=
  mulf
    (mulf (extractStridedSlice S512x1024 ![0, 0] (gateupV v0 v3) Gen.slices_S512x2048_o0_0_S512x1024)
      (logistic (extractStridedSlice S512x1024 ![0, 0] (gateupV v0 v3) Gen.slices_S512x2048_o0_0_S512x1024)))
    (extractStridedSlice S512x1024 ![0, 1024] (gateupV v0 v3) Gen.slices_S512x2048_o0_1024_S512x1024)

/-- The activation against the expert's down slab: a [512, 1024] array. -/
def downV (v0 : Vec Ideal S512x1024 .f32) (v3 : Vec Ideal S1x1024x2048 .f32) (v13 : Vec Ideal S1x1024x1024 .f32) :
    FVec Ideal S512x1024 .f32 :=
  matmul dot_S512x1024_S1024x1024_S512x1024_1_0_0_1_n_n none
    (truncf .bf16 (actV v0 v3) Gen.bitsLt_bf16_f32)
    (truncf .bf16 (shapeCast S1024x1024 v13 Gen.shapeCasts_S1x1024x1024_S1024x1024) Gen.bitsLt_bf16_f32)
    (constant S512x1024 .f32 0x00000000#32)

/-- Each row's routing weight for the expert whose index is the word `e`, repeated along the row. -/
def weightV (e : BitVec 32) (v17 : Vec Ideal S512x2 .i32) (v20 : Vec Ideal S512x2 .f32) : FVec Ideal S512x1024 .f32 :=
  broadcastTo S512x1024
    (shapeCast S512x1
      (multiReduction (F := Ideal) .add [1] S512
        (select (cmpi .eq v17 (broadcast S512x2 e)) v20 (broadcast S512x2 (Scalar.ofBits (F := Ideal) .f32 0x00000000#32)))
        0x00000000#32 Gen.reduces_S512x2_S512 (.inl rfl) rfl)
      Gen.shapeCasts_S512_S512x1)
    Gen.broadcasts_S512x1_S512x1024

/-- The stored value is the product of the two. -/
theorem pay1_eq (i : grid0.Coords) (v0 : Vec Ideal S512x1024 .f32) (v3 : Vec Ideal S1x1024x2048 .f32)
    (v13 : Vec Ideal S1x1024x1024 .f32) (v17 : Vec Ideal S512x2 .i32) (v20 : Vec Ideal S512x2 .f32) :
    Gen.k0_pay1 (F := Ideal) i v0 v3 v13 v17 v20
      = mulf (downV v0 v3 v13) (weightV (BitVec.ofNat 32 (i 1).val) v17 v20) := rfl

/-! ## The two matrix products at an index -/

/-- A [512,1024] by [1024,2048] product into the zero array, read at (p, n): the sum over the shared axis. -/
theorem gateup_matmul_apply (L : FVec Ideal S512x1024 .bf16) (R : FVec Ideal S1024x2048 .bf16) (p : Fin 512) (n : Fin 2048) :
    matmul dot_S512x1024_S1024x2048_S512x2048_1_0_0_1_n_n none L R (constant (F := Ideal) S512x2048 .f32 0x00000000#32) (ix2 p n)
      = ∑ h : Fin 1024, L (ix2 p h) * R (ix2 h n) := by
  show FloatOps.matmul _ none L R _ (ix2 p n) = _
  rw [Ideal.matmul_constant_zero_apply,
    ← Equiv.sum_comp (contrEquiv1 dot_S512x1024_S1024x2048_S512x2048_1_0_0_1_n_n 1024 rfl rfl).symm]
  refine Finset.sum_congr rfl fun c _ => ?_
  have c2 := contrEquiv1_symm_val dot_S512x1024_S1024x2048_S512x2048_1_0_0_1_n_n 1024 rfl rfl c
  have l2 : dot_S512x1024_S1024x2048_S512x2048_1_0_0_1_n_n.lhsIdx (ix2 p n) ((contrEquiv1 _ 1024 rfl rfl).symm c) = ix2 p c := by
    funext ax; apply Fin.ext
    match ax with
    | ⟨0, _⟩ => simp [DotDims.lhsIdx, dot_S512x1024_S1024x2048_S512x2048_1_0_0_1_n_n]; rfl
    | ⟨1, _⟩ => simp [DotDims.lhsIdx, dot_S512x1024_S1024x2048_S512x2048_1_0_0_1_n_n]; exact c2
  have r2 : dot_S512x1024_S1024x2048_S512x2048_1_0_0_1_n_n.rhsIdx (ix2 p n) ((contrEquiv1 _ 1024 rfl rfl).symm c) = ix2 c n := by
    funext ax; apply Fin.ext
    match ax with
    | ⟨0, _⟩ => simp [DotDims.rhsIdx, dot_S512x1024_S1024x2048_S512x2048_1_0_0_1_n_n]; exact c2
    | ⟨1, _⟩ => simp [DotDims.rhsIdx, dot_S512x1024_S1024x2048_S512x2048_1_0_0_1_n_n]; rfl
  rw [l2, r2]

/-- A [512,1024] by [1024,1024] product into the zero array, read at (p, q). -/
theorem down_matmul_apply (L : FVec Ideal S512x1024 .bf16) (R : FVec Ideal S1024x1024 .bf16) (p : Fin 512) (q : Fin 1024) :
    matmul dot_S512x1024_S1024x1024_S512x1024_1_0_0_1_n_n none L R (constant (F := Ideal) S512x1024 .f32 0x00000000#32) (ix2 p q)
      = ∑ k : Fin 1024, L (ix2 p k) * R (ix2 k q) := by
  show FloatOps.matmul _ none L R _ (ix2 p q) = _
  rw [Ideal.matmul_constant_zero_apply,
    ← Equiv.sum_comp (contrEquiv1 dot_S512x1024_S1024x1024_S512x1024_1_0_0_1_n_n 1024 rfl rfl).symm]
  refine Finset.sum_congr rfl fun c _ => ?_
  have c2 := contrEquiv1_symm_val dot_S512x1024_S1024x1024_S512x1024_1_0_0_1_n_n 1024 rfl rfl c
  have l2 : dot_S512x1024_S1024x1024_S512x1024_1_0_0_1_n_n.lhsIdx (ix2 p q) ((contrEquiv1 _ 1024 rfl rfl).symm c) = ix2 p c := by
    funext ax; apply Fin.ext
    match ax with
    | ⟨0, _⟩ => simp [DotDims.lhsIdx, dot_S512x1024_S1024x1024_S512x1024_1_0_0_1_n_n]; rfl
    | ⟨1, _⟩ => simp [DotDims.lhsIdx, dot_S512x1024_S1024x1024_S512x1024_1_0_0_1_n_n]; exact c2
  have r2 : dot_S512x1024_S1024x1024_S512x1024_1_0_0_1_n_n.rhsIdx (ix2 p q) ((contrEquiv1 _ 1024 rfl rfl).symm c) = ix2 c q := by
    funext ax; apply Fin.ext
    match ax with
    | ⟨0, _⟩ => simp [DotDims.rhsIdx, dot_S512x1024_S1024x1024_S512x1024_1_0_0_1_n_n]; exact c2
    | ⟨1, _⟩ => simp [DotDims.rhsIdx, dot_S512x1024_S1024x1024_S512x1024_1_0_0_1_n_n]; rfl
  rw [l2, r2]

/-! ## Each stage at an index -/

/-- The gate-up array at (p, n) is row p of the block against column n of the slab. -/
theorem gateupV_apply (v0 : Vec Ideal S512x1024 .f32) (v3 : Vec Ideal S1x1024x2048 .f32) (p : Fin 512) (n : Fin 2048) :
    gateupV v0 v3 (ix2 p n) = projB v0 v3 p n := by
  unfold gateupV projB
  refine (gateup_matmul_apply _ _ p n).trans (Finset.sum_congr rfl fun h _ => ?_)
  -- a change of format is the identity; the cast to the same shape is the identity; the slab drops its unit axis
  have e0 : shapeCast S512x1024 v0 Gen.shapeCasts_S512x1024_S512x1024 (ix2 p h) = v0 (ix2 p h) :=
    congrFun (shapeCast_self v0 _) _
  have e3 : shapeCast S1024x2048 v3 Gen.shapeCasts_S1x1024x2048_S1024x2048 (ix2 h n) = v3 (ix3 (0 : Fin 1) h n) :=
    shapeCast_1ab_ab_apply v3 _ h n
  exact congrArg₂ (· * ·) e0 e3

/-- The activation at (p, k). -/
theorem actV_apply (v0 : Vec Ideal S512x1024 .f32) (v3 : Vec Ideal S1x1024x2048 .f32) (p : Fin 512) (k : Fin 1024) :
    actV v0 v3 (ix2 p k) = actB v0 v3 p k := by
  unfold actV actB
  have hg : extractStridedSlice S512x1024 ![0, 0] (gateupV v0 v3) Gen.slices_S512x2048_o0_0_S512x1024 (ix2 p k)
      = projB v0 v3 p ⟨k.val, by omega⟩ :=
    (slice2_axis1_apply 0 (gateupV v0 v3) _ p k ⟨k.val, by omega⟩ (Nat.zero_add _).symm).trans (gateupV_apply v0 v3 p _)
  have hu : extractStridedSlice S512x1024 ![0, 1024] (gateupV v0 v3) Gen.slices_S512x2048_o0_1024_S512x1024 (ix2 p k)
      = projB v0 v3 p ⟨1024 + k.val, by omega⟩ :=
    (slice2_axis1_apply 1024 (gateupV v0 v3) _ p k ⟨1024 + k.val, by omega⟩ rfl).trans (gateupV_apply v0 v3 p _)
  exact congrArg₂ (· * ·) (congrArg₂ (fun a b => a * Ideal.logistic b) hg hg) hu

/-- The expert's output at (p, q). -/
theorem downV_apply (v0 : Vec Ideal S512x1024 .f32) (v3 : Vec Ideal S1x1024x2048 .f32) (v13 : Vec Ideal S1x1024x1024 .f32)
    (p : Fin 512) (q : Fin 1024) :
    downV v0 v3 v13 (ix2 p q) = ∑ k : Fin 1024, actB v0 v3 p k * v13 (ix3 (0 : Fin 1) k q) := by
  unfold downV
  refine (down_matmul_apply _ _ p q).trans (Finset.sum_congr rfl fun k _ => ?_)
  have e13 : shapeCast S1024x1024 v13 Gen.shapeCasts_S1x1024x1024_S1024x1024 (ix2 k q) = v13 (ix3 (0 : Fin 1) k q) :=
    shapeCast_1ab_ab_apply v13 _ k q
  exact congrArg₂ (· * ·) (actV_apply v0 v3 p k) e13

/-! ## The routing weight -/

/-- The sum over the two routing slots of a [512, 2] array, read at row p. -/
theorem slotsum_apply (src : FVec Ideal S512x2 .f32) (h : S512x2.Reduces [1] S512) (hφ : FKind.Formats .f32)
    (hacc : (0x00000000#32 : BitVec 32) = FKind.add.neutral .f32 hφ) (p : Fin 512) :
    multiReduction (F := Ideal) .add [1] S512 src 0x00000000#32 h hφ hacc (ix1 p) = ∑ s : Fin 2, src (ix2 p s) := by
  refine (Ideal.multiReduction_add_single src 0x00000000#32 h hφ hacc (ix1 p)).trans ?_
  refine Finset.sum_congr rfl fun s _ => congrArg src ?_
  funext ax; apply Fin.ext
  match ax with
  | ⟨0, _⟩ => rfl
  | ⟨1, _⟩ => rfl

/-- The zero word's value added on the left changes nothing. -/
theorem zero_word_add (T : EReal) : Ideal.ofBits .f32 0x00000000#32 + T = T := by
  rw [Ideal.ofBits_zero_f32, zero_add]

/-- The weight array at (p, q): the zero word's value plus, over the two slots, the slot's weight where the slot names
    this expert and the zero word's value elsewhere. -/
theorem weightV_apply (e : BitVec 32) (v17 : Vec Ideal S512x2 .i32) (v20 : Vec Ideal S512x2 .f32) (p : Fin 512) (q : Fin 1024) :
    weightV e v17 v20 (ix2 p q)
      = Ideal.ofBits .f32 0x00000000#32
        + ∑ s : Fin 2, Scalar.select (IntOp.cmpi .eq (v17 (ix2 p s)) e) (v20 (ix2 p s)) (Ideal.ofBits .f32 0x00000000#32) := by
  unfold weightV
  refine (LibColumnBroadcast.broadcastTo_a1_ab_apply _ _ p q).trans ?_
  refine (LibColumnCast.shapeCast_a_a1_apply _ _ p (0 : Fin 1)).trans ?_
  refine (slotsum_apply _ _ _ _ p).trans ?_
  exact (zero_word_add _).symm

/-! ## The stored values at an index -/

theorem pay1_apply (i : grid0.Coords) (v0 : Vec Ideal S512x1024 .f32) (v3 : Vec Ideal S1x1024x2048 .f32) (v13 : Vec Ideal S1x1024x1024 .f32) (v17 : Vec Ideal S512x2 .i32) (v20 : Vec Ideal S512x2 .f32) (p : Fin 512) (q : Fin 1024) :
    Cert.KernelIdeal.Gen.k0_pay1 (F := Ideal) i v0 v3 v13 v17 v20 (ix2 p q) = contribB (i 1).val v0 v3 v13 v17 v20 p q := by
  refine (congrFun (pay1_eq i v0 v3 v13 v17 v20) (ix2 p q)).trans ?_
  unfold contribB
  exact congrArg₂ (· * ·) (downV_apply v0 v3 v13 p q) (weightV_apply _ v17 v20 p q)

theorem pay2_apply (i : grid0.Coords) (v0 : Vec Ideal S512x1024 .f32) (v3 : Vec Ideal S1x1024x2048 .f32) (v13 : Vec Ideal S1x1024x1024 .f32) (v17 : Vec Ideal S512x2 .i32) (v20 : Vec Ideal S512x2 .f32) (v33 : Vec Ideal S512x1024 .f32) (p : Fin 512) (q : Fin 1024) :
    Cert.KernelIdeal.Gen.k0_pay2 (F := Ideal) i v0 v3 v13 v17 v20 v33 (ix2 p q) = v33 (ix2 p q) + contribB (i 1).val v0 v3 v13 v17 v20 p q := by
  have e33 : shapeCast S512x1024 v33 Gen.shapeCasts_S512x1024_S512x1024 (ix2 p q) = v33 (ix2 p q) :=
    congrFun (shapeCast_self v33 _) _
  exact congrArg₂ (· + ·) e33 (pay1_apply i v0 v3 v13 v17 v20 p q)

end Cert.KernelIdeal.Contrib

end
-- ==== Proof.ExpertSum.lean ====
/-
  The routed mixture-of-experts layer as one function of its five argument arrays, over the extended reals.

  For a token row `r` and an expert `e`:
    proj e r n   = ∑ h, x[r, h] · Wgu[e, h, n]                     (the token against column n of the expert's gate-up matrix)
    act e r k    = g · logistic g · u,   g = proj e r k,  u = proj e r (1024 + k)
    expertOut    = ∑ k, act e r k · Wd[e, k, j]
    routing e r  = 0 + ∑ s < 2, (idx[r, s] = e ? w[r, s] : 0)      (the weight the router gives expert e for the token)
    contrib      = expertOut · routing
  and the layer's output at (r, j) is the left-nested sum of the eight contributions,
  ((((((c₀ + c₁) + c₂) + c₃) + c₄) + c₅) + c₆) + c₇.  No law of the extended reals beyond 0 + a = a
  is needed to meet either program, so nothing here asks for finite inputs.
-/
import Idealize.ShloMosaic.PureOps.Ideal
import Idealize.ShloMosaic.PureOps.Ideal.Laws
import Idealize.ShloMosaic.Lib.ValueIdx

noncomputable section

namespace Cert.ExpertSum

open Idealize.ShloMosaic Idealize.ShloMosaic.ValueIdx

/-- Token row `r` of the hidden states (read through the flattening [1, 2048, 1024] → [2048, 1024]) against column `n`
    of expert `e`'s gate-up matrix. -/
def proj (x : (⟨3, ![1, 2048, 1024]⟩ : Shape).Idx → EReal) (wgu : (⟨3, ![8, 1024, 2048]⟩ : Shape).Idx → EReal)
    (e : Fin 8) (r : Fin 2048) (n : Fin 2048) : EReal :=
  ∑ h : Fin 1024, x (ix3 (0 : Fin 1) r h) * wgu (ix3 e h n)

/-- The gated activation silu(g) · u at hidden unit `k`: the gate half is columns [0, 1024), the up half [1024, 2048). -/
def act (x : (⟨3, ![1, 2048, 1024]⟩ : Shape).Idx → EReal) (wgu : (⟨3, ![8, 1024, 2048]⟩ : Shape).Idx → EReal)
    (e : Fin 8) (r : Fin 2048) (k : Fin 1024) : EReal :=
  proj x wgu e r ⟨k.val, by omega⟩ * Ideal.logistic (proj x wgu e r ⟨k.val, by omega⟩) * proj x wgu e r ⟨1024 + k.val, by omega⟩

/-- Expert `e`'s output for token `r` at column `j`: the activation against the expert's down matrix. -/
def expertOut (x : (⟨3, ![1, 2048, 1024]⟩ : Shape).Idx → EReal) (wgu : (⟨3, ![8, 1024, 2048]⟩ : Shape).Idx → EReal)
    (wd : (⟨3, ![8, 1024, 1024]⟩ : Shape).Idx → EReal) (e : Fin 8) (r : Fin 2048) (j : Fin 1024) : EReal :=
  ∑ k : Fin 1024, act x wgu e r k * wd (ix3 e k j)

/-- The routing weight of expert `e` for token `r`: the sum over the two slots of the slot's weight where the slot names `e`. -/
def routing (idx : (⟨2, ![2048, 2]⟩ : Shape).Idx → BitVec 32) (w : (⟨2, ![2048, 2]⟩ : Shape).Idx → EReal)
    (e : Fin 8) (r : Fin 2048) : EReal :=
  Ideal.ofBits .f32 0x00000000#32
    + ∑ s : Fin 2, Scalar.select (IntOp.cmpi .eq (idx (ix2 r s)) (BitVec.ofNat 32 e.val)) (w (ix2 r s)) (Ideal.ofBits .f32 0x00000000#32)

/-- Expert `e`'s weighted contribution to token `r`, column `j`. -/
def contrib (x : (⟨3, ![1, 2048, 1024]⟩ : Shape).Idx → EReal) (wgu : (⟨3, ![8, 1024, 2048]⟩ : Shape).Idx → EReal)
    (wd : (⟨3, ![8, 1024, 1024]⟩ : Shape).Idx → EReal) (idx : (⟨2, ![2048, 2]⟩ : Shape).Idx → BitVec 32)
    (w : (⟨2, ![2048, 2]⟩ : Shape).Idx → EReal) (e : Fin 8) (r : Fin 2048) (j : Fin 1024) : EReal :=
  expertOut x wgu wd e r j * routing idx w e r

/-- The contributions of experts 0 … n summed from the left: `partialSum 0 = c₀`, `partialSum (n + 1) = partialSum n + cₙ₊₁`. -/
def partialSum (x : (⟨3, ![1, 2048, 1024]⟩ : Shape).Idx → EReal) (wgu : (⟨3, ![8, 1024, 2048]⟩ : Shape).Idx → EReal)
    (wd : (⟨3, ![8, 1024, 1024]⟩ : Shape).Idx → EReal) (idx : (⟨2, ![2048, 2]⟩ : Shape).Idx → BitVec 32)
    (w : (⟨2, ![2048, 2]⟩ : Shape).Idx → EReal) (r : Fin 2048) (j : Fin 1024) : (n : ℕ) → n < 8 → EReal
  | 0, h => contrib x wgu wd idx w ⟨0, h⟩ r j
  | n + 1, h => partialSum x wgu wd idx w r j n (Nat.lt_of_succ_lt h) + contrib x wgu wd idx w ⟨n + 1, h⟩ r j

/-- The layer's output as a [2048, 1024] array: all eight experts. -/
def layer2 (x : (⟨3, ![1, 2048, 1024]⟩ : Shape).Idx → EReal) (wgu : (⟨3, ![8, 1024, 2048]⟩ : Shape).Idx → EReal)
    (wd : (⟨3, ![8, 1024, 1024]⟩ : Shape).Idx → EReal) (idx : (⟨2, ![2048, 2]⟩ : Shape).Idx → BitVec 32)
    (w : (⟨2, ![2048, 2]⟩ : Shape).Idx → EReal) : (⟨2, ![2048, 1024]⟩ : Shape).Idx → EReal :=
  fun i => partialSum x wgu wd idx w (i 0) (i 1) 7 (by omega)

/-- The layer's output in the argument's own shape [1, 2048, 1024]. -/
def layer (x : (⟨3, ![1, 2048, 1024]⟩ : Shape).Idx → EReal) (wgu : (⟨3, ![8, 1024, 2048]⟩ : Shape).Idx → EReal)
    (wd : (⟨3, ![8, 1024, 1024]⟩ : Shape).Idx → EReal) (idx : (⟨2, ![2048, 2]⟩ : Shape).Idx → BitVec 32)
    (w : (⟨2, ![2048, 2]⟩ : Shape).Idx → EReal) : (⟨3, ![1, 2048, 1024]⟩ : Shape).Idx → EReal :=
  fun i => layer2 x wgu wd idx w (ix2 (i 1) (i 2))

end Cert.ExpertSum

end
-- ==== Proof.IdealValue.lean ====
/-
  The kernel's result as the layer's specification.

  After grid point t = 8·b + e the output block's buffer holds, at entry (p, q), the left-nested sum of the contributions
  of experts 0 … e to token 512·b + p at column q (induction on the point: the first expert overwrites, each later one
  adds its contribution to what the point before left). The buffer is written back after expert 7, so block b of the
  result array is block b of the full eight-expert sum; the four blocks tile the array's rows; and the host reshape
  after the call keeps row-major positions, which gives the result in the argument's shape [1, 2048, 1024].
-/
import proofs.«116809_g77670188581355_cont_9to1_m_704_5_alg».proof.Proof.IdealPieces
import proofs.«116809_g77670188581355_cont_9to1_m_704_5_alg».proof.Proof.IdealBlocks
import proofs.«116809_g77670188581355_cont_9to1_m_704_5_alg».proof.Proof.BlockContribAt
import proofs.«116809_g77670188581355_cont_9to1_m_704_5_alg».proof.Proof.ExpertSum

set_option maxRecDepth 16384

noncomputable section

namespace Cert.KernelIdeal.Layer

open Cert.KernelIdeal Cert.KernelIdeal.Gen Cert.KernelIdeal.Body Cert.KernelIdeal.Blocks Cert.KernelIdeal.Contrib Cert.ExpertSum
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## A block's contribution is the arrays' -/

theorem projB_blk (c : Dev nD) (t : Fin cfg0.N) (p : Fin 512) (n : Fin 2048) :
    projB (iblk m c 2 t) (iblk m c 3 t) p n
      = proj (m ((c : Thread nD τ).loc main_arg0)) (m ((c : Thread nD τ).loc main_arg1)) (⟨t.val % 8, by omega⟩ : Fin 8)
          ⟨512 * (t.val / 8) + p.val, by have := lt_N t; omega⟩ n := by
  unfold projB proj
  refine Finset.sum_congr rfl fun h _ => ?_
  rw [hidden_blk m c t p h, gateup_blk m c t h n]

theorem actB_blk (c : Dev nD) (t : Fin cfg0.N) (p : Fin 512) (k : Fin 1024) :
    actB (iblk m c 2 t) (iblk m c 3 t) p k
      = act (m ((c : Thread nD τ).loc main_arg0)) (m ((c : Thread nD τ).loc main_arg1)) (⟨t.val % 8, by omega⟩ : Fin 8)
          ⟨512 * (t.val / 8) + p.val, by have := lt_N t; omega⟩ k := by
  unfold actB act
  simp only [projB_blk]

/-- The block-local contribution at point `t` is the specification's contribution of expert `t mod 8` to token
    512·(t/8) + p. -/
theorem contribB_blk (c : Dev nD) (t : Fin cfg0.N) (p : Fin 512) (q : Fin 1024) :
    contribB (t.val % 8) (iblk m c 2 t) (iblk m c 3 t) (iblk m c 4 t) (iblk m c 0 t) (iblk m c 1 t) p q
      = contrib (m ((c : Thread nD τ).loc main_arg0)) (m ((c : Thread nD τ).loc main_arg1)) (m ((c : Thread nD τ).loc main_arg2)) (m ((c : Thread nD τ).loc main_arg3)) (m ((c : Thread nD τ).loc main_arg4)) (⟨t.val % 8, by omega⟩ : Fin 8) ⟨512 * (t.val / 8) + p.val, by have := lt_N t; omega⟩ q := by
  unfold contribB contrib expertOut routing
  refine congrArg₂ (· * ·) ?_ ?_
  · refine Finset.sum_congr rfl fun k _ => ?_
    rw [actB_blk m c t p k, down_blk m c t k q]
  · refine congrArg _ (Finset.sum_congr rfl fun s _ => ?_)
    rw [index_blk m c t p s, weight_blk m c t p s]

/-! ## The partial sums, without dependent arithmetic -/

theorem partialSum_of_eq_zero (x : (⟨3, ![1, 2048, 1024]⟩ : Shape).Idx → EReal) (wgu : (⟨3, ![8, 1024, 2048]⟩ : Shape).Idx → EReal)
    (wd : (⟨3, ![8, 1024, 1024]⟩ : Shape).Idx → EReal) (idx : (⟨2, ![2048, 2]⟩ : Shape).Idx → BitVec 32)
    (w : (⟨2, ![2048, 2]⟩ : Shape).Idx → EReal) (r : Fin 2048) (j : Fin 1024) (k : ℕ) (hk : k < 8) (h : k = 0) :
    partialSum x wgu wd idx w r j k hk = contrib x wgu wd idx w ⟨k, hk⟩ r j := by
  subst h; rfl

theorem partialSum_of_eq_succ (x : (⟨3, ![1, 2048, 1024]⟩ : Shape).Idx → EReal) (wgu : (⟨3, ![8, 1024, 2048]⟩ : Shape).Idx → EReal)
    (wd : (⟨3, ![8, 1024, 1024]⟩ : Shape).Idx → EReal) (idx : (⟨2, ![2048, 2]⟩ : Shape).Idx → BitVec 32)
    (w : (⟨2, ![2048, 2]⟩ : Shape).Idx → EReal) (r : Fin 2048) (j : Fin 1024) (k : ℕ) (hk : k < 8) (k' : ℕ) (hk' : k' < 8) (h : k = k' + 1) :
    partialSum x wgu wd idx w r j k hk = partialSum x wgu wd idx w r j k' hk' + contrib x wgu wd idx w ⟨k, hk⟩ r j := by
  subst h; rfl

/-! ## The output buffer after each point -/

/-- After point `n` the output buffer holds, at (p, q), the sum of the contributions of experts 0 … n mod 8 to token
    512·(n/8) + p at column q. -/
theorem outsAt_apply (c : Dev nD) : ∀ (n : ℕ) (hn : n < cfg0.N) (p : Fin 512) (q : Fin 1024) (r : Fin 2048)
    (hr : r.val = 512 * (n / 8) + p.val) (k : ℕ) (hk : k < 8) (hkn : k = n % 8),
    outsAt m c n hn (ix2 p q) = partialSum (m ((c : Thread nD τ).loc main_arg0)) (m ((c : Thread nD τ).loc main_arg1)) (m ((c : Thread nD τ).loc main_arg2)) (m ((c : Thread nD τ).loc main_arg3)) (m ((c : Thread nD τ).loc main_arg4)) r q k hk := by
  intro n
  induction n with
  | zero =>
    intro hn p q r hr k hk hkn
    have e1 := outsAt_first m c ⟨0, hn⟩ (Nat.zero_mod _)
    have hi := coords_val ⟨0, hn⟩
    rw [show outsAt m c 0 hn = outsAt m c (⟨0, hn⟩ : Fin cfg0.N).val (⟨0, hn⟩ : Fin cfg0.N).isLt from rfl, e1, outFirst_eq, pay1_apply, hi.2,
      contribB_blk m c ⟨0, hn⟩ p q, partialSum_of_eq_zero _ _ _ _ _ r q k hk (by omega)]
    have h1 : (⟨(⟨0, hn⟩ : Fin cfg0.N).val % 8, by omega⟩ : Fin 8) = ⟨k, hk⟩ := Fin.ext (by show 0 % 8 = k; omega)
    have h2 : (⟨512 * ((⟨0, hn⟩ : Fin cfg0.N).val / 8) + p.val, by have := lt_N (⟨0, hn⟩ : Fin cfg0.N); omega⟩ : Fin 2048) = r := Fin.ext (by show 512 * (0 / 8) + p.val = r.val; omega)
    rw [h1, h2]
  | succ n ih =>
    intro hn p q r hr k hk hkn
    have hN : n + 1 < 32 := lt_of_lt_of_eq hn (show cfg0.N = 32 from N_0)
    have hi := coords_val ⟨n + 1, hn⟩
    by_cases h0 : (n + 1) % 8 = 0
    · have e1 := outsAt_first m c ⟨n + 1, hn⟩ h0
      rw [show outsAt m c (n + 1) hn = outsAt m c (⟨n + 1, hn⟩ : Fin cfg0.N).val (⟨n + 1, hn⟩ : Fin cfg0.N).isLt from rfl, e1, outFirst_eq, pay1_apply, hi.2,
        contribB_blk m c ⟨n + 1, hn⟩ p q, partialSum_of_eq_zero _ _ _ _ _ r q k hk (by omega)]
      have h1 : (⟨(⟨n + 1, hn⟩ : Fin cfg0.N).val % 8, by omega⟩ : Fin 8) = ⟨k, hk⟩ := Fin.ext (by show (n + 1) % 8 = k; omega)
      have h2 : (⟨512 * ((⟨n + 1, hn⟩ : Fin cfg0.N).val / 8) + p.val, by have := lt_N (⟨n + 1, hn⟩ : Fin cfg0.N); omega⟩ : Fin 2048) = r := Fin.ext (by show 512 * ((n + 1) / 8) + p.val = r.val; omega)
      rw [h1, h2]
    · have e1 := outsAt_later m c ⟨n + 1, hn⟩ h0
      rw [show outsAt m c (n + 1) hn = outsAt m c (⟨n + 1, hn⟩ : Fin cfg0.N).val (⟨n + 1, hn⟩ : Fin cfg0.N).isLt from rfl, e1, outLater_eq, pay2_apply, hi.2,
        contribB_blk m c ⟨n + 1, hn⟩ p q,
        partialSum_of_eq_succ _ _ _ _ _ r q k hk (k - 1) (by omega) (by omega)]
      have h1 : (⟨(⟨n + 1, hn⟩ : Fin cfg0.N).val % 8, by omega⟩ : Fin 8) = ⟨k, hk⟩ := Fin.ext (by show (n + 1) % 8 = k; omega)
      have h2 : (⟨512 * ((⟨n + 1, hn⟩ : Fin cfg0.N).val / 8) + p.val, by have := lt_N (⟨n + 1, hn⟩ : Fin cfg0.N); omega⟩ : Fin 2048) = r := Fin.ext (by show 512 * ((n + 1) / 8) + p.val = r.val; omega)
      rw [h1, h2]
      refine congrArg (· + _) ?_
      exact ih (Nat.lt_of_succ_lt hn) p q r (by omega) (k - 1) (by omega) (by omega)

/-- The same at any index of the block. -/
theorem outsAt_at (c : Dev nD) (n : ℕ) (hn : n < cfg0.N) (y : S512x1024.Idx) (r : Fin 2048)
    (hr : r.val = 512 * (n / 8) + (y 0).val) (k : ℕ) (hk : k < 8) (hkn : k = n % 8) :
    outsAt m c n hn y = partialSum (m ((c : Thread nD τ).loc main_arg0)) (m ((c : Thread nD τ).loc main_arg1)) (m ((c : Thread nD τ).loc main_arg2)) (m ((c : Thread nD τ).loc main_arg3)) (m ((c : Thread nD τ).loc main_arg4)) r (y 1) k hk :=
  (congrArg (outsAt m c n hn) (eq_ix2 y)).trans (outsAt_apply m c n hn (y 0) (y 1) r hr k hk hkn)

/-! ## What a flushing point writes back, the cover, the final array -/

/-- The result array's indices in point `t`'s output block. -/
theorem mem_out_blk (t : Fin cfg0.N) (i : S2048x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v1).slice (win0_5.rect t)).set ↔ _
  rw [View.set_slice_whole, Rect.mem_set_unit]
  exact Iff.rfl

/-- WHAT POINT `t` WRITES BACK, when it writes back (after the last expert of a token block), is its block of the layer. -/
theorem flushed_eq (c : Dev nD) (t : Fin cfg0.N) (hfl : (cfg0.win 5).flush t = true) :
    (dats m 0 c).flushed 5 t = ((cfg0.win 5).blk t).view.read (Elt Ideal) (layer2 (m ((c : Thread nD τ).loc main_arg0)) (m ((c : Thread nD τ).loc main_arg1)) (m ((c : Thread nD τ).loc main_arg2)) (m ((c : Thread nD τ).loc main_arg3)) (m ((c : Thread nD τ).loc main_arg4))) := by
  have h7 : t.val % 8 = 7 := (flush0_5 t).mp hfl
  have hN := lt_N t
  obtain ⟨-, -, -, -, -, -, -, -, -, -, -, -, e0, e1⟩ := index_facts t
  show (cfg0.win 5).cut (grid0.coords t) ((dats m 0 c).after 5 t) = _
  rw [after_5]
  funext j
  rw [View.read_apply]
  show outsAt m c t.val t.isLt j = layer2 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb j)
  have hj0 : (j 0).val < 512 := (j 0).isLt
  have hj1 : (j 1).val < 1024 := (j 1).isLt
  refine (outsAt_at m c t.val t.isLt j ⟨512 * (t.val / 8) + (j 0).val, by omega⟩ rfl 7 (by omega) h7.symm).trans ?_
  unfold layer2
  have a0 : (⟨512 * (t.val / 8) + (j 0).val, by omega⟩ : Fin 2048) = (((cfg0.win 5).blk t).view.emb j) 0 :=
    Fin.ext (by show 512 * (t.val / 8) + (j 0).val = win0_5.index t (0 : Fin 2) * 512 + 1 * (j 0).val; omega)
  have a1 : (j 1 : Fin 1024) = (((cfg0.win 5).blk t).view.emb j) 1 :=
    Fin.ext (by show (j 1).val = win0_5.index t (1 : Fin 2) * 1024 + 1 * (j 1).val; omega)
  rw [a0, a1]

/-- Every index of the result array is in the block some flushing point writes back: row r is in token block r / 512,
    written back at point 8·(r / 512) + 7. -/
theorem covered (i : S2048x1024.Idx) :
    ∃ t : Fin cfg0.N, (cfg0.win 5).flush t = true ∧ i ∈ ((cfg0.win 5).blk t).view.set := by
  have hi0 : (i 0).val < 2048 := (i 0).isLt
  have hi1 : (i 1).val < 1024 := (i 1).isLt
  let t : Fin cfg0.N := ⟨8 * ((i 0).val / 512) + 7, by rw [show cfg0.N = 32 from N_0]; omega⟩
  have ht : t.val = 8 * ((i 0).val / 512) + 7 := rfl
  obtain ⟨-, -, -, -, -, -, -, -, -, -, -, -, e0, e1⟩ := index_facts t
  refine ⟨t, (flush0_5 t).mpr (by omega), ?_⟩
  rw [mem_out_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- THE RESULT ARRAY of the call after the run: the layer, as a [2048, 1024] array. -/
theorem final (c : Dev nD) : (dats m 0 c).arrAt 5 cfg0.N = layer2 (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 (layer2 (m ((c : Thread nD τ).loc main_arg0)) (m ((c : Thread nD τ).loc main_arg1)) (m ((c : Thread nD τ).loc main_arg2)) (m ((c : Thread nD τ).loc main_arg3)) (m ((c : Thread nD τ).loc main_arg4))) (fun t hfl => flushed_eq m c t hfl) covered

/-- The program's result buffer after the host reshape that follows the call. -/
theorem tail_eq (c : Dev nD) :
    Pipeline.afterTail₀ cfgs (dats m) 0 (V0 m) [hostOps1] c main_v2 = layer (m ((c : Thread nD τ).loc main_arg0)) (m ((c : Thread nD τ).loc main_arg1)) (m ((c : Thread nD τ).loc main_arg2)) (m ((c : Thread nD τ).loc main_arg3)) (m ((c : Thread nD τ).loc main_arg4)) := by
  have hw : Pipeline.withArrays (cfgs 0).spec c (V0 m c) (fun w => (dats m 0 c).arrAt w (cfgs 0).N) (Proc.devRef .tc main_v1)
      = layer2 (m ((c : Thread nD τ).loc main_arg0)) (m ((c : Thread nD τ).loc main_arg1)) (m ((c : Thread nD τ).loc main_arg2)) (m ((c : Thread nD τ).loc main_arg3)) (m ((c : Thread nD τ).loc main_arg4)) :=
    (Pipeline.withArrays_arr spec0 launch0.win.arr_inj c _ _ 5).trans (final m c)
  unfold Pipeline.afterTail₀
  show StableHlo.after hostOps1 _ (Proc.devRef .tc main_v2) = _
  after_results
  funext i
  show shapeCast S1x2048x1024 (Pipeline.withArrays (cfgs 0).spec c (V0 m c) (fun w => (dats m 0 c).arrAt w (cfgs 0).N) (Proc.devRef .tc main_v1))
      shapeCasts_S2048x1024_S1x2048x1024 i = _
  rw [hw]
  refine (shapeCast_apply (layer2 (m ((c : Thread nD τ).loc main_arg0)) (m ((c : Thread nD τ).loc main_arg1)) (m ((c : Thread nD τ).loc main_arg2)) (m ((c : Thread nD τ).loc main_arg3)) (m ((c : Thread nD τ).loc main_arg4))) shapeCasts_S2048x1024_S1x2048x1024 i (ix2 (i 1) (i 2)) ?_).trans rfl
  show (S2048x1024.rowMajor (ix2 (i 1) (i 2))).val = (S1x2048x1024.rowMajor i).val
  rewrite [Shape.rowMajor_val_two, Shape.rowMajor_val_three]
  have h0 : (i 0).val < 1 := (i 0).isLt
  show (i 1).val * 1024 + (i 2).val = ((i 0).val * 2048 + (i 1).val) * 1024 + (i 2).val
  omega

/-- THE RUN, READ: every weakly fair execution of the idealized kernel terminates with the result buffer at the layer of
    the argument arrays and the arguments unchanged. -/
theorem run : θ_run defs (onTc (τ := τ) (main (F := Ideal))) ⟨m, fun _ => 0, ρ⟩ fun r => ∀ c : Dev nD,
      r.2.mem ((c.tc : Thread nD τ).loc main_v2) = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v2 (Pipeline.mem_restRefs_of main_v2 (by decide) (by decide))).trans (tail_eq m c),
      (((h c).2 main_arg0 (Pipeline.mem_restRefs_of main_arg0 (by decide) (by decide))).trans (W_main_arg0 m (dats m) c)),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).1 0).trans (((dats m 0 c).arrAt_in 0 rfl _).trans ((A_eq m c 0).trans (V_main_arg3 m c))),
      ((h c).1 1).trans (((dats m 0 c).arrAt_in 1 rfl _).trans ((A_eq m c 1).trans (V_main_arg4 m c)))⟩) (run_main m ρ)

end Cert.KernelIdeal.Layer

end
-- ==== Proof.RefLayerScalar.lean ====
/-
  Three facts about single numbers over the extended reals: the word 0x3F800000 is one, the sigmoid written out
  as 1 / (1 + exp (-g)) is the logistic function, and adding to the zero word changes nothing.
-/
import Idealize.ShloMosaic.PureOps.Ideal
import Idealize.ShloMosaic.PureOps.Ideal.Laws

namespace Cert.RefLayer

open Idealize.ShloMosaic

/-- The single-precision word 0x3F800000 is the number one: sign 0, exponent 127, fraction 0. -/
theorem one_f32 : Ideal.ofBits .f32 0x3F800000#32 = (1 : EReal) := by
  simp [Ideal.ofBits, Ideal.ieee, -EReal.coe_mul]; norm_num

/-- The sigmoid spelled with a negation, an exponential, an addition to one and a division of one
    is the logistic function, 1 / (1 + exp (-g)). -/
theorem sigmoid_spelled (g : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf g)))
    = Ideal.logistic g := by
  rw [Ideal.ofBits_def, one_f32]; rfl

/-- Adding to the zero word changes nothing: 0 + a = a. -/
theorem zero_word_add (a : Ideal .f32) :
    FloatOps.addf (FloatOps.ofBits (F := Ideal) .f32 0x00000000#32) a = a := by
  rw [Ideal.addf_def, Ideal.ofBits_def, Ideal.ofBits_zero_f32, zero_add]

end Cert.RefLayer
-- ==== Proof.RefLayerHidden.lean ====
/-
  The flattened hidden states: the reshape [1, 2048, 1024] → [2048, 1024] read at (r, h) is the argument at (0, r, h).
  Every expert's first matrix product reads its left operand through this.
-/
import proofs.«116809_g77670188581355_cont_9to1_m_704_5_alg».proof.Proof.RefReadP

noncomputable section

namespace Cert.RefLayer

open Cert.ReferenceIdeal Cert.ReferenceIdeal.ReadP Idealize.ShloMosaic Idealize.ShloMosaic.ValueIdx

/-- Row-major flattening of a leading axis of size one: position r · 1024 + h of the flat array is (0, r, h). -/
theorem hidden_at (x0 : (⟨S1x2048x1024, .f32⟩ : BufTy).Contents (Elt Ideal)) (j : S2048x1024.Idx) :
    val_main_v0 (F := Ideal) x0 j = x0 (ix3 (0 : Fin 1) (j 0) (j 1)) := by
  rw [val_main_v0_apply]
  refine congrArg x0 (funext fun a => ?_)
  match a with
  | ⟨0, _⟩ => exact Fin.ext rfl
  | ⟨1, _⟩ => exact Fin.ext (by have h0 : (j 0).val < 2048 := (j 0).isLt; have h1 : (j 1).val < 1024 := (j 1).isLt; show ((j 0).val * 1024 + (j 1).val) / 1024 % 2048 = (j 0).val; omega)
  | ⟨2, _⟩ => exact Fin.ext (by have h0 : (j 0).val < 2048 := (j 0).isLt; have h1 : (j 1).val < 1024 := (j 1).isLt; show ((j 0).val * 1024 + (j 1).val) % 1024 = (j 1).val; omega)

end Cert.RefLayer

end
-- ==== Proof.RefLayerE0.lean ====
/-
  Expert 0 of the reference, stage by stage: its slice of the gate-up array, the first matrix product (proj), the gated
  activation g · logistic g · u (act), its slice of the down array, the second matrix product (expertOut), the routing
  weight summed over the two slots (routing), and the weighted contribution (contrib).
-/
import proofs.«116809_g77670188581355_cont_9to1_m_704_5_alg».proof.Proof.RefReadP
import proofs.«116809_g77670188581355_cont_9to1_m_704_5_alg».proof.Proof.ExpertSum
import proofs.«116809_g77670188581355_cont_9to1_m_704_5_alg».proof.Proof.RefLayerScalar
import proofs.«116809_g77670188581355_cont_9to1_m_704_5_alg».proof.Proof.RefLayerHidden

noncomputable section

namespace Cert.RefLayer

open Cert.ReferenceIdeal Cert.ReferenceIdeal.ReadP Cert.ExpertSum Idealize.ShloMosaic Idealize.ShloMosaic.ValueIdx

/-- Expert 0's gate-up matrix: the slice at [0, 0, 0] flattened to [1024, 2048] read at (h, n) is the argument at (0, h, n). -/
theorem gateup0_at (x1 : (⟨S8x1024x2048, .f32⟩ : BufTy).Contents (Elt Ideal)) (j : S1024x2048.Idx) :
    val_main_v3 (F := Ideal) x1 j = x1 (ix3 (0 : Fin 8) (j 0) (j 1)) := by
  rw [val_main_v3_apply, val_main_v2_apply]
  refine congrArg x1 (funext fun a => ?_)
  match a with
  | ⟨0, _⟩ => exact Fin.ext rfl
  | ⟨1, _⟩ => exact Fin.ext (by have h0 : (j 0).val < 1024 := (j 0).isLt; have h1 : (j 1).val < 2048 := (j 1).isLt; show ((j 0).val * 2048 + (j 1).val) / 2048 % 1024 = (j 0).val; omega)
  | ⟨2, _⟩ => exact Fin.ext (by have h0 : (j 0).val < 1024 := (j 0).isLt; have h1 : (j 1).val < 2048 := (j 1).isLt; show ((j 0).val * 2048 + (j 1).val) % 2048 = (j 1).val; omega)

/-- The first matrix product at (r, n): the token row against column n of the expert's gate-up matrix. -/
theorem proj0 (x0 : (⟨S1x2048x1024, .f32⟩ : BufTy).Contents (Elt Ideal)) (x1 : (⟨S8x1024x2048, .f32⟩ : BufTy).Contents (Elt Ideal)) (i : S2048x2048.Idx) :
    val_main_v4 (F := Ideal) x0 x1 i = proj x0 x1 (0 : Fin 8) (i 0) (i 1) := by
  rw [val_main_v4_apply]
  unfold proj
  refine Finset.sum_congr rfl fun k _ => ?_
  rw [hidden_at, gateup0_at]
  rfl

/-- The gated activation at (r, k): the gate half is columns [0, 1024) of the product, the up half columns [1024, 2048),
    and the sigmoid is written out as 1 / (1 + exp (-g)). -/
theorem act0 (x0 : (⟨S1x2048x1024, .f32⟩ : BufTy).Contents (Elt Ideal)) (x1 : (⟨S8x1024x2048, .f32⟩ : BufTy).Contents (Elt Ideal)) (j : S2048x1024.Idx) :
    val_main_v14 (F := Ideal) x0 x1 j = act x0 x1 (0 : Fin 8) (j 0) (j 1) := by
  rw [val_main_v14_apply, val_main_v13_apply, val_main_v12_apply, val_main_v11_apply, val_main_cst_1_apply,
    val_main_v10_apply, val_main_v9_apply, val_main_cst_0_apply, val_main_v8_apply, val_main_v7_apply,
    val_main_v6_apply, val_main_v5_apply, proj0, proj0, sigmoid_spelled]
  rfl

/-- Expert 0's down matrix: the slice at [0, 0, 0] flattened to [1024, 1024] read at (k, c) is the argument at (0, k, c). -/
theorem down0_at (x2 : (⟨S8x1024x1024, .f32⟩ : BufTy).Contents (Elt Ideal)) (j : S1024x1024.Idx) :
    val_main_v16 (F := Ideal) x2 j = x2 (ix3 (0 : Fin 8) (j 0) (j 1)) := by
  rw [val_main_v16_apply, val_main_v15_apply]
  refine congrArg x2 (funext fun a => ?_)
  match a with
  | ⟨0, _⟩ => exact Fin.ext rfl
  | ⟨1, _⟩ => exact Fin.ext (by have h0 : (j 0).val < 1024 := (j 0).isLt; have h1 : (j 1).val < 1024 := (j 1).isLt; show ((j 0).val * 1024 + (j 1).val) / 1024 % 1024 = (j 0).val; omega)
  | ⟨2, _⟩ => exact Fin.ext (by have h0 : (j 0).val < 1024 := (j 0).isLt; have h1 : (j 1).val < 1024 := (j 1).isLt; show ((j 0).val * 1024 + (j 1).val) % 1024 = (j 1).val; omega)

/-- The second matrix product at (r, c): the activation row against column c of the expert's down matrix. -/
theorem out0 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (j : S2048x1024.Idx) :
    val_main_v17 (F := Ideal) x0 x1 x2 j = expertOut x0 x1 x2 (0 : Fin 8) (j 0) (j 1) := by
  rw [val_main_v17_apply]
  unfold expertOut
  refine Finset.sum_congr rfl fun k _ => ?_
  rw [act0, down0_at]
  rfl

/-- The routing weight of expert 0 for token r: the zero word plus the sum over the two slots of the slot's weight
    where the slot's index equals 0, and the zero word elsewhere. -/
theorem routing0 (x3 : (⟨S2048x2, .i32⟩ : BufTy).Contents (Elt Ideal)) (x4 : (⟨S2048x2, .f32⟩ : BufTy).Contents (Elt Ideal)) (j : S2048.Idx) :
    val_main_v21 (F := Ideal) x3 x4 j = routing x3 x4 (0 : Fin 8) (j 0) := by
  have hidx : ∀ s : Fin 2, idx_main_v21 j s = ix2 (j 0) s := fun s => funext fun a => by
    match a with
    | ⟨0, _⟩ => rfl
    | ⟨1, _⟩ => rfl
  rw [val_main_v21_apply, val_main_cst_3_apply]
  unfold routing
  refine congrArg (_ + ·) (Finset.sum_congr rfl fun s _ => ?_)
  rw [val_main_v20_apply, val_main_v19_apply, val_main_v18_apply, val_main_c_apply,
    val_main_call0_v1_apply, val_main_call0_v0_apply, val_main_cst_2_apply, hidx s]
  rfl

/-- Expert 0's contribution at (r, c): its output times its routing weight, the weight broadcast along the row. -/
theorem contrib0 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (x3 : (⟨S2048x2, .i32⟩ : BufTy).Contents (Elt Ideal)) (x4 : (⟨S2048x2, .f32⟩ : BufTy).Contents (Elt Ideal)) (j : S2048x1024.Idx) :
    val_main_v24 (F := Ideal) x0 x1 x2 x3 x4 j = contrib x0 x1 x2 x3 x4 (0 : Fin 8) (j 0) (j 1) := by
  rw [val_main_v24_apply, val_main_v23_apply, val_main_v22_apply, out0, routing0]
  rfl

end Cert.RefLayer

end
-- ==== Proof.RefLayerE1.lean ====
/-
  Expert 1 of the reference, stage by stage: its slice of the gate-up array, the first matrix product (proj), the gated
  activation g · logistic g · u (act), its slice of the down array, the second matrix product (expertOut), the routing
  weight summed over the two slots (routing), and the weighted contribution (contrib).
-/
import proofs.«116809_g77670188581355_cont_9to1_m_704_5_alg».proof.Proof.RefReadP
import proofs.«116809_g77670188581355_cont_9to1_m_704_5_alg».proof.Proof.ExpertSum
import proofs.«116809_g77670188581355_cont_9to1_m_704_5_alg».proof.Proof.RefLayerScalar
import proofs.«116809_g77670188581355_cont_9to1_m_704_5_alg».proof.Proof.RefLayerHidden

noncomputable section

namespace Cert.RefLayer

open Cert.ReferenceIdeal Cert.ReferenceIdeal.ReadP Cert.ExpertSum Idealize.ShloMosaic Idealize.ShloMosaic.ValueIdx

/-- Expert 1's gate-up matrix: the slice at [1, 0, 0] flattened to [1024, 2048] read at (h, n) is the argument at (1, h, n). -/
theorem gateup1_at (x1 : (⟨S8x1024x2048, .f32⟩ : BufTy).Contents (Elt Ideal)) (j : S1024x2048.Idx) :
    val_main_v27 (F := Ideal) x1 j = x1 (ix3 (1 : Fin 8) (j 0) (j 1)) := by
  rw [val_main_v27_apply, val_main_v26_apply]
  refine congrArg x1 (funext fun a => ?_)
  match a with
  | ⟨0, _⟩ => exact Fin.ext rfl
  | ⟨1, _⟩ => exact Fin.ext (by have h0 : (j 0).val < 1024 := (j 0).isLt; have h1 : (j 1).val < 2048 := (j 1).isLt; show ((j 0).val * 2048 + (j 1).val) / 2048 % 1024 = (j 0).val; omega)
  | ⟨2, _⟩ => exact Fin.ext (by have h0 : (j 0).val < 1024 := (j 0).isLt; have h1 : (j 1).val < 2048 := (j 1).isLt; show ((j 0).val * 2048 + (j 1).val) % 2048 = (j 1).val; omega)

/-- The first matrix product at (r, n): the token row against column n of the expert's gate-up matrix. -/
theorem proj1 (x0 : (⟨S1x2048x1024, .f32⟩ : BufTy).Contents (Elt Ideal)) (x1 : (⟨S8x1024x2048, .f32⟩ : BufTy).Contents (Elt Ideal)) (i : S2048x2048.Idx) :
    val_main_v28 (F := Ideal) x0 x1 i = proj x0 x1 (1 : Fin 8) (i 0) (i 1) := by
  rw [val_main_v28_apply]
  unfold proj
  refine Finset.sum_congr rfl fun k _ => ?_
  rw [hidden_at, gateup1_at]
  rfl

/-- The gated activation at (r, k): the gate half is columns [0, 1024) of the product, the up half columns [1024, 2048),
    and the sigmoid is written out as 1 / (1 + exp (-g)). -/
theorem act1 (x0 : (⟨S1x2048x1024, .f32⟩ : BufTy).Contents (Elt Ideal)) (x1 : (⟨S8x1024x2048, .f32⟩ : BufTy).Contents (Elt Ideal)) (j : S2048x1024.Idx) :
    val_main_v38 (F := Ideal) x0 x1 j = act x0 x1 (1 : Fin 8) (j 0) (j 1) := by
  rw [val_main_v38_apply, val_main_v37_apply, val_main_v36_apply, val_main_v35_apply, val_main_cst_5_apply,
    val_main_v34_apply, val_main_v33_apply, val_main_cst_4_apply, val_main_v32_apply, val_main_v31_apply,
    val_main_v30_apply, val_main_v29_apply, proj1, proj1, sigmoid_spelled]
  rfl

/-- Expert 1's down matrix: the slice at [1, 0, 0] flattened to [1024, 1024] read at (k, c) is the argument at (1, k, c). -/
theorem down1_at (x2 : (⟨S8x1024x1024, .f32⟩ : BufTy).Contents (Elt Ideal)) (j : S1024x1024.Idx) :
    val_main_v40 (F := Ideal) x2 j = x2 (ix3 (1 : Fin 8) (j 0) (j 1)) := by
  rw [val_main_v40_apply, val_main_v39_apply]
  refine congrArg x2 (funext fun a => ?_)
  match a with
  | ⟨0, _⟩ => exact Fin.ext rfl
  | ⟨1, _⟩ => exact Fin.ext (by have h0 : (j 0).val < 1024 := (j 0).isLt; have h1 : (j 1).val < 1024 := (j 1).isLt; show ((j 0).val * 1024 + (j 1).val) / 1024 % 1024 = (j 0).val; omega)
  | ⟨2, _⟩ => exact Fin.ext (by have h0 : (j 0).val < 1024 := (j 0).isLt; have h1 : (j 1).val < 1024 := (j 1).isLt; show ((j 0).val * 1024 + (j 1).val) % 1024 = (j 1).val; omega)

/-- The second matrix product at (r, c): the activation row against column c of the expert's down matrix. -/
theorem out1 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (j : S2048x1024.Idx) :
    val_main_v41 (F := Ideal) x0 x1 x2 j = expertOut x0 x1 x2 (1 : Fin 8) (j 0) (j 1) := by
  rw [val_main_v41_apply]
  unfold expertOut
  refine Finset.sum_congr rfl fun k _ => ?_
  rw [act1, down1_at]
  rfl

/-- The routing weight of expert 1 for token r: the zero word plus the sum over the two slots of the slot's weight
    where the slot's index equals 1, and the zero word elsewhere. -/
theorem routing1 (x3 : (⟨S2048x2, .i32⟩ : BufTy).Contents (Elt Ideal)) (x4 : (⟨S2048x2, .f32⟩ : BufTy).Contents (Elt Ideal)) (j : S2048.Idx) :
    val_main_v45 (F := Ideal) x3 x4 j = routing x3 x4 (1 : Fin 8) (j 0) := by
  have hidx : ∀ s : Fin 2, idx_main_v45 j s = ix2 (j 0) s := fun s => funext fun a => by
    match a with
    | ⟨0, _⟩ => rfl
    | ⟨1, _⟩ => rfl
  rw [val_main_v45_apply, val_main_cst_8_apply]
  unfold routing
  refine congrArg (_ + ·) (Finset.sum_congr rfl fun s _ => ?_)
  rw [val_main_v44_apply, val_main_v43_apply, val_main_v42_apply, val_main_c_6_apply,
    val_main_call1_v1_apply, val_main_call1_v0_apply, val_main_cst_7_apply, hidx s]
  rfl

/-- Expert 1's contribution at (r, c): its output times its routing weight, the weight broadcast along the row. -/
theorem contrib1 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (x3 : (⟨S2048x2, .i32⟩ : BufTy).Contents (Elt Ideal)) (x4 : (⟨S2048x2, .f32⟩ : BufTy).Contents (Elt Ideal)) (j : S2048x1024.Idx) :
    val_main_v48 (F := Ideal) x0 x1 x2 x3 x4 j = contrib x0 x1 x2 x3 x4 (1 : Fin 8) (j 0) (j 1) := by
  rw [val_main_v48_apply, val_main_v47_apply, val_main_v46_apply, out1, routing1]
  rfl

end Cert.RefLayer

end
-- ==== Proof.RefLayerE2.lean ====
/-
  Expert 2 of the reference, stage by stage: its slice of the gate-up array, the first matrix product (proj), the gated
  activation g · logistic g · u (act), its slice of the down array, the second matrix product (expertOut), the routing
  weight summed over the two slots (routing), and the weighted contribution (contrib).
-/
import proofs.«116809_g77670188581355_cont_9to1_m_704_5_alg».proof.Proof.RefReadP
import proofs.«116809_g77670188581355_cont_9to1_m_704_5_alg».proof.Proof.ExpertSum
import proofs.«116809_g77670188581355_cont_9to1_m_704_5_alg».proof.Proof.RefLayerScalar
import proofs.«116809_g77670188581355_cont_9to1_m_704_5_alg».proof.Proof.RefLayerHidden

noncomputable section

namespace Cert.RefLayer

open Cert.ReferenceIdeal Cert.ReferenceIdeal.ReadP Cert.ExpertSum Idealize.ShloMosaic Idealize.ShloMosaic.ValueIdx

/-- Expert 2's gate-up matrix: the slice at [2, 0, 0] flattened to [1024, 2048] read at (h, n) is the argument at (2, h, n). -/
theorem gateup2_at (x1 : (⟨S8x1024x2048, .f32⟩ : BufTy).Contents (Elt Ideal)) (j : S1024x2048.Idx) :
    val_main_v51 (F := Ideal) x1 j = x1 (ix3 (2 : Fin 8) (j 0) (j 1)) := by
  rw [val_main_v51_apply, val_main_v50_apply]
  refine congrArg x1 (funext fun a => ?_)
  match a with
  | ⟨0, _⟩ => exact Fin.ext rfl
  | ⟨1, _⟩ => exact Fin.ext (by have h0 : (j 0).val < 1024 := (j 0).isLt; have h1 : (j 1).val < 2048 := (j 1).isLt; show ((j 0).val * 2048 + (j 1).val) / 2048 % 1024 = (j 0).val; omega)
  | ⟨2, _⟩ => exact Fin.ext (by have h0 : (j 0).val < 1024 := (j 0).isLt; have h1 : (j 1).val < 2048 := (j 1).isLt; show ((j 0).val * 2048 + (j 1).val) % 2048 = (j 1).val; omega)

/-- The first matrix product at (r, n): the token row against column n of the expert's gate-up matrix. -/
theorem proj2 (x0 : (⟨S1x2048x1024, .f32⟩ : BufTy).Contents (Elt Ideal)) (x1 : (⟨S8x1024x2048, .f32⟩ : BufTy).Contents (Elt Ideal)) (i : S2048x2048.Idx) :
    val_main_v52 (F := Ideal) x0 x1 i = proj x0 x1 (2 : Fin 8) (i 0) (i 1) := by
  rw [val_main_v52_apply]
  unfold proj
  refine Finset.sum_congr rfl fun k _ => ?_
  rw [hidden_at, gateup2_at]
  rfl

/-- The gated activation at (r, k): the gate half is columns [0, 1024) of the product, the up half columns [1024, 2048),
    and the sigmoid is written out as 1 / (1 + exp (-g)). -/
theorem act2 (x0 : (⟨S1x2048x1024, .f32⟩ : BufTy).Contents (Elt Ideal)) (x1 : (⟨S8x1024x2048, .f32⟩ : BufTy).Contents (Elt Ideal)) (j : S2048x1024.Idx) :
    val_main_v62 (F := Ideal) x0 x1 j = act x0 x1 (2 : Fin 8) (j 0) (j 1) := by
  rw [val_main_v62_apply, val_main_v61_apply, val_main_v60_apply, val_main_v59_apply, val_main_cst_10_apply,
    val_main_v58_apply, val_main_v57_apply, val_main_cst_9_apply, val_main_v56_apply, val_main_v55_apply,
    val_main_v54_apply, val_main_v53_apply, proj2, proj2, sigmoid_spelled]
  rfl

/-- Expert 2's down matrix: the slice at [2, 0, 0] flattened to [1024, 1024] read at (k, c) is the argument at (2, k, c). -/
theorem down2_at (x2 : (⟨S8x1024x1024, .f32⟩ : BufTy).Contents (Elt Ideal)) (j : S1024x1024.Idx) :
    val_main_v64 (F := Ideal) x2 j = x2 (ix3 (2 : Fin 8) (j 0) (j 1)) := by
  rw [val_main_v64_apply, val_main_v63_apply]
  refine congrArg x2 (funext fun a => ?_)
  match a with
  | ⟨0, _⟩ => exact Fin.ext rfl
  | ⟨1, _⟩ => exact Fin.ext (by have h0 : (j 0).val < 1024 := (j 0).isLt; have h1 : (j 1).val < 1024 := (j 1).isLt; show ((j 0).val * 1024 + (j 1).val) / 1024 % 1024 = (j 0).val; omega)
  | ⟨2, _⟩ => exact Fin.ext (by have h0 : (j 0).val < 1024 := (j 0).isLt; have h1 : (j 1).val < 1024 := (j 1).isLt; show ((j 0).val * 1024 + (j 1).val) % 1024 = (j 1).val; omega)

/-- The second matrix product at (r, c): the activation row against column c of the expert's down matrix. -/
theorem out2 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (j : S2048x1024.Idx) :
    val_main_v65 (F := Ideal) x0 x1 x2 j = expertOut x0 x1 x2 (2 : Fin 8) (j 0) (j 1) := by
  rw [val_main_v65_apply]
  unfold expertOut
  refine Finset.sum_congr rfl fun k _ => ?_
  rw [act2, down2_at]
  rfl

/-- The routing weight of expert 2 for token r: the zero word plus the sum over the two slots of the slot's weight
    where the slot's index equals 2, and the zero word elsewhere. -/
theorem routing2 (x3 : (⟨S2048x2, .i32⟩ : BufTy).Contents (Elt Ideal)) (x4 : (⟨S2048x2, .f32⟩ : BufTy).Contents (Elt Ideal)) (j : S2048.Idx) :
    val_main_v69 (F := Ideal) x3 x4 j = routing x3 x4 (2 : Fin 8) (j 0) := by
  have hidx : ∀ s : Fin 2, idx_main_v69 j s = ix2 (j 0) s := fun s => funext fun a => by
    match a with
    | ⟨0, _⟩ => rfl
    | ⟨1, _⟩ => rfl
  rw [val_main_v69_apply, val_main_cst_13_apply]
  unfold routing
  refine congrArg (_ + ·) (Finset.sum_congr rfl fun s _ => ?_)
  rw [val_main_v68_apply, val_main_v67_apply, val_main_v66_apply, val_main_c_11_apply,
    val_main_call2_v1_apply, val_main_call2_v0_apply, val_main_cst_12_apply, hidx s]
  rfl

/-- Expert 2's contribution at (r, c): its output times its routing weight, the weight broadcast along the row. -/
theorem contrib2 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (x3 : (⟨S2048x2, .i32⟩ : BufTy).Contents (Elt Ideal)) (x4 : (⟨S2048x2, .f32⟩ : BufTy).Contents (Elt Ideal)) (j : S2048x1024.Idx) :
    val_main_v72 (F := Ideal) x0 x1 x2 x3 x4 j = contrib x0 x1 x2 x3 x4 (2 : Fin 8) (j 0) (j 1) := by
  rw [val_main_v72_apply, val_main_v71_apply, val_main_v70_apply, out2, routing2]
  rfl

end Cert.RefLayer

end
-- ==== Proof.RefLayerE3.lean ====
/-
  Expert 3 of the reference, stage by stage: its slice of the gate-up array, the first matrix product (proj), the gated
  activation g · logistic g · u (act), its slice of the down array, the second matrix product (expertOut), the routing
  weight summed over the two slots (routing), and the weighted contribution (contrib).
-/
import proofs.«116809_g77670188581355_cont_9to1_m_704_5_alg».proof.Proof.RefReadP
import proofs.«116809_g77670188581355_cont_9to1_m_704_5_alg».proof.Proof.ExpertSum
import proofs.«116809_g77670188581355_cont_9to1_m_704_5_alg».proof.Proof.RefLayerScalar
import proofs.«116809_g77670188581355_cont_9to1_m_704_5_alg».proof.Proof.RefLayerHidden

noncomputable section

namespace Cert.RefLayer

open Cert.ReferenceIdeal Cert.ReferenceIdeal.ReadP Cert.ExpertSum Idealize.ShloMosaic Idealize.ShloMosaic.ValueIdx

/-- Expert 3's gate-up matrix: the slice at [3, 0, 0] flattened to [1024, 2048] read at (h, n) is the argument at (3, h, n). -/
theorem gateup3_at (x1 : (⟨S8x1024x2048, .f32⟩ : BufTy).Contents (Elt Ideal)) (j : S1024x2048.Idx) :
    val_main_v75 (F := Ideal) x1 j = x1 (ix3 (3 : Fin 8) (j 0) (j 1)) := by
  rw [val_main_v75_apply, val_main_v74_apply]
  refine congrArg x1 (funext fun a => ?_)
  match a with
  | ⟨0, _⟩ => exact Fin.ext rfl
  | ⟨1, _⟩ => exact Fin.ext (by have h0 : (j 0).val < 1024 := (j 0).isLt; have h1 : (j 1).val < 2048 := (j 1).isLt; show ((j 0).val * 2048 + (j 1).val) / 2048 % 1024 = (j 0).val; omega)
  | ⟨2, _⟩ => exact Fin.ext (by have h0 : (j 0).val < 1024 := (j 0).isLt; have h1 : (j 1).val < 2048 := (j 1).isLt; show ((j 0).val * 2048 + (j 1).val) % 2048 = (j 1).val; omega)

/-- The first matrix product at (r, n): the token row against column n of the expert's gate-up matrix. -/
theorem proj3 (x0 : (⟨S1x2048x1024, .f32⟩ : BufTy).Contents (Elt Ideal)) (x1 : (⟨S8x1024x2048, .f32⟩ : BufTy).Contents (Elt Ideal)) (i : S2048x2048.Idx) :
    val_main_v76 (F := Ideal) x0 x1 i = proj x0 x1 (3 : Fin 8) (i 0) (i 1) := by
  rw [val_main_v76_apply]
  unfold proj
  refine Finset.sum_congr rfl fun k _ => ?_
  rw [hidden_at, gateup3_at]
  rfl

/-- The gated activation at (r, k): the gate half is columns [0, 1024) of the product, the up half columns [1024, 2048),
    and the sigmoid is written out as 1 / (1 + exp (-g)). -/
theorem act3 (x0 : (⟨S1x2048x1024, .f32⟩ : BufTy).Contents (Elt Ideal)) (x1 : (⟨S8x1024x2048, .f32⟩ : BufTy).Contents (Elt Ideal)) (j : S2048x1024.Idx) :
    val_main_v86 (F := Ideal) x0 x1 j = act x0 x1 (3 : Fin 8) (j 0) (j 1) := by
  rw [val_main_v86_apply, val_main_v85_apply, val_main_v84_apply, val_main_v83_apply, val_main_cst_15_apply,
    val_main_v82_apply, val_main_v81_apply, val_main_cst_14_apply, val_main_v80_apply, val_main_v79_apply,
    val_main_v78_apply, val_main_v77_apply, proj3, proj3, sigmoid_spelled]
  rfl

/-- Expert 3's down matrix: the slice at [3, 0, 0] flattened to [1024, 1024] read at (k, c) is the argument at (3, k, c). -/
theorem down3_at (x2 : (⟨S8x1024x1024, .f32⟩ : BufTy).Contents (Elt Ideal)) (j : S1024x1024.Idx) :
    val_main_v88 (F := Ideal) x2 j = x2 (ix3 (3 : Fin 8) (j 0) (j 1)) := by
  rw [val_main_v88_apply, val_main_v87_apply]
  refine congrArg x2 (funext fun a => ?_)
  match a with
  | ⟨0, _⟩ => exact Fin.ext rfl
  | ⟨1, _⟩ => exact Fin.ext (by have h0 : (j 0).val < 1024 := (j 0).isLt; have h1 : (j 1).val < 1024 := (j 1).isLt; show ((j 0).val * 1024 + (j 1).val) / 1024 % 1024 = (j 0).val; omega)
  | ⟨2, _⟩ => exact Fin.ext (by have h0 : (j 0).val < 1024 := (j 0).isLt; have h1 : (j 1).val < 1024 := (j 1).isLt; show ((j 0).val * 1024 + (j 1).val) % 1024 = (j 1).val; omega)

/-- The second matrix product at (r, c): the activation row against column c of the expert's down matrix. -/
theorem out3 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (j : S2048x1024.Idx) :
    val_main_v89 (F := Ideal) x0 x1 x2 j = expertOut x0 x1 x2 (3 : Fin 8) (j 0) (j 1) := by
  rw [val_main_v89_apply]
  unfold expertOut
  refine Finset.sum_congr rfl fun k _ => ?_
  rw [act3, down3_at]
  rfl

/-- The routing weight of expert 3 for token r: the zero word plus the sum over the two slots of the slot's weight
    where the slot's index equals 3, and the zero word elsewhere. -/
theorem routing3 (x3 : (⟨S2048x2, .i32⟩ : BufTy).Contents (Elt Ideal)) (x4 : (⟨S2048x2, .f32⟩ : BufTy).Contents (Elt Ideal)) (j : S2048.Idx) :
    val_main_v93 (F := Ideal) x3 x4 j = routing x3 x4 (3 : Fin 8) (j 0) := by
  have hidx : ∀ s : Fin 2, idx_main_v93 j s = ix2 (j 0) s := fun s => funext fun a => by
    match a with
    | ⟨0, _⟩ => rfl
    | ⟨1, _⟩ => rfl
  rw [val_main_v93_apply, val_main_cst_18_apply]
  unfold routing
  refine congrArg (_ + ·) (Finset.sum_congr rfl fun s _ => ?_)
  rw [val_main_v92_apply, val_main_v91_apply, val_main_v90_apply, val_main_c_16_apply,
    val_main_call3_v1_apply, val_main_call3_v0_apply, val_main_cst_17_apply, hidx s]
  rfl

/-- Expert 3's contribution at (r, c): its output times its routing weight, the weight broadcast along the row. -/
theorem contrib3 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (x3 : (⟨S2048x2, .i32⟩ : BufTy).Contents (Elt Ideal)) (x4 : (⟨S2048x2, .f32⟩ : BufTy).Contents (Elt Ideal)) (j : S2048x1024.Idx) :
    val_main_v96 (F := Ideal) x0 x1 x2 x3 x4 j = contrib x0 x1 x2 x3 x4 (3 : Fin 8) (j 0) (j 1) := by
  rw [val_main_v96_apply, val_main_v95_apply, val_main_v94_apply, out3, routing3]
  rfl

end Cert.RefLayer

end
-- ==== Proof.RefLayerE4.lean ====
/-
  Expert 4 of the reference, stage by stage: its slice of the gate-up array, the first matrix product (proj), the gated
  activation g · logistic g · u (act), its slice of the down array, the second matrix product (expertOut), the routing
  weight summed over the two slots (routing), and the weighted contribution (contrib).
-/
import proofs.«116809_g77670188581355_cont_9to1_m_704_5_alg».proof.Proof.RefReadP
import proofs.«116809_g77670188581355_cont_9to1_m_704_5_alg».proof.Proof.ExpertSum
import proofs.«116809_g77670188581355_cont_9to1_m_704_5_alg».proof.Proof.RefLayerScalar
import proofs.«116809_g77670188581355_cont_9to1_m_704_5_alg».proof.Proof.RefLayerHidden

noncomputable section

namespace Cert.RefLayer

open Cert.ReferenceIdeal Cert.ReferenceIdeal.ReadP Cert.ExpertSum Idealize.ShloMosaic Idealize.ShloMosaic.ValueIdx

/-- Expert 4's gate-up matrix: the slice at [4, 0, 0] flattened to [1024, 2048] read at (h, n) is the argument at (4, h, n). -/
theorem gateup4_at (x1 : (⟨S8x1024x2048, .f32⟩ : BufTy).Contents (Elt Ideal)) (j : S1024x2048.Idx) :
    val_main_v99 (F := Ideal) x1 j = x1 (ix3 (4 : Fin 8) (j 0) (j 1)) := by
  rw [val_main_v99_apply, val_main_v98_apply]
  refine congrArg x1 (funext fun a => ?_)
  match a with
  | ⟨0, _⟩ => exact Fin.ext rfl
  | ⟨1, _⟩ => exact Fin.ext (by have h0 : (j 0).val < 1024 := (j 0).isLt; have h1 : (j 1).val < 2048 := (j 1).isLt; show ((j 0).val * 2048 + (j 1).val) / 2048 % 1024 = (j 0).val; omega)
  | ⟨2, _⟩ => exact Fin.ext (by have h0 : (j 0).val < 1024 := (j 0).isLt; have h1 : (j 1).val < 2048 := (j 1).isLt; show ((j 0).val * 2048 + (j 1).val) % 2048 = (j 1).val; omega)

/-- The first matrix product at (r, n): the token row against column n of the expert's gate-up matrix. -/
theorem proj4 (x0 : (⟨S1x2048x1024, .f32⟩ : BufTy).Contents (Elt Ideal)) (x1 : (⟨S8x1024x2048, .f32⟩ : BufTy).Contents (Elt Ideal)) (i : S2048x2048.Idx) :
    val_main_v100 (F := Ideal) x0 x1 i = proj x0 x1 (4 : Fin 8) (i 0) (i 1) := by
  rw [val_main_v100_apply]
  unfold proj
  refine Finset.sum_congr rfl fun k _ => ?_
  rw [hidden_at, gateup4_at]
  rfl

/-- The gated activation at (r, k): the gate half is columns [0, 1024) of the product, the up half columns [1024, 2048),
    and the sigmoid is written out as 1 / (1 + exp (-g)). -/
theorem act4 (x0 : (⟨S1x2048x1024, .f32⟩ : BufTy).Contents (Elt Ideal)) (x1 : (⟨S8x1024x2048, .f32⟩ : BufTy).Contents (Elt Ideal)) (j : S2048x1024.Idx) :
    val_main_v110 (F := Ideal) x0 x1 j = act x0 x1 (4 : Fin 8) (j 0) (j 1) := by
  rw [val_main_v110_apply, val_main_v109_apply, val_main_v108_apply, val_main_v107_apply, val_main_cst_20_apply,
    val_main_v106_apply, val_main_v105_apply, val_main_cst_19_apply, val_main_v104_apply, val_main_v103_apply,
    val_main_v102_apply, val_main_v101_apply, proj4, proj4, sigmoid_spelled]
  rfl

/-- Expert 4's down matrix: the slice at [4, 0, 0] flattened to [1024, 1024] read at (k, c) is the argument at (4, k, c). -/
theorem down4_at (x2 : (⟨S8x1024x1024, .f32⟩ : BufTy).Contents (Elt Ideal)) (j : S1024x1024.Idx) :
    val_main_v112 (F := Ideal) x2 j = x2 (ix3 (4 : Fin 8) (j 0) (j 1)) := by
  rw [val_main_v112_apply, val_main_v111_apply]
  refine congrArg x2 (funext fun a => ?_)
  match a with
  | ⟨0, _⟩ => exact Fin.ext rfl
  | ⟨1, _⟩ => exact Fin.ext (by have h0 : (j 0).val < 1024 := (j 0).isLt; have h1 : (j 1).val < 1024 := (j 1).isLt; show ((j 0).val * 1024 + (j 1).val) / 1024 % 1024 = (j 0).val; omega)
  | ⟨2, _⟩ => exact Fin.ext (by have h0 : (j 0).val < 1024 := (j 0).isLt; have h1 : (j 1).val < 1024 := (j 1).isLt; show ((j 0).val * 1024 + (j 1).val) % 1024 = (j 1).val; omega)

/-- The second matrix product at (r, c): the activation row against column c of the expert's down matrix. -/
theorem out4 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (j : S2048x1024.Idx) :
    val_main_v113 (F := Ideal) x0 x1 x2 j = expertOut x0 x1 x2 (4 : Fin 8) (j 0) (j 1) := by
  rw [val_main_v113_apply]
  unfold expertOut
  refine Finset.sum_congr rfl fun k _ => ?_
  rw [act4, down4_at]
  rfl

/-- The routing weight of expert 4 for token r: the zero word plus the sum over the two slots of the slot's weight
    where the slot's index equals 4, and the zero word elsewhere. -/
theorem routing4 (x3 : (⟨S2048x2, .i32⟩ : BufTy).Contents (Elt Ideal)) (x4 : (⟨S2048x2, .f32⟩ : BufTy).Contents (Elt Ideal)) (j : S2048.Idx) :
    val_main_v117 (F := Ideal) x3 x4 j = routing x3 x4 (4 : Fin 8) (j 0) := by
  have hidx : ∀ s : Fin 2, idx_main_v117 j s = ix2 (j 0) s := fun s => funext fun a => by
    match a with
    | ⟨0, _⟩ => rfl
    | ⟨1, _⟩ => rfl
  rw [val_main_v117_apply, val_main_cst_23_apply]
  unfold routing
  refine congrArg (_ + ·) (Finset.sum_congr rfl fun s _ => ?_)
  rw [val_main_v116_apply, val_main_v115_apply, val_main_v114_apply, val_main_c_21_apply,
    val_main_call4_v1_apply, val_main_call4_v0_apply, val_main_cst_22_apply, hidx s]
  rfl

/-- Expert 4's contribution at (r, c): its output times its routing weight, the weight broadcast along the row. -/
theorem contrib4 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (x3 : (⟨S2048x2, .i32⟩ : BufTy).Contents (Elt Ideal)) (x4 : (⟨S2048x2, .f32⟩ : BufTy).Contents (Elt Ideal)) (j : S2048x1024.Idx) :
    val_main_v120 (F := Ideal) x0 x1 x2 x3 x4 j = contrib x0 x1 x2 x3 x4 (4 : Fin 8) (j 0) (j 1) := by
  rw [val_main_v120_apply, val_main_v119_apply, val_main_v118_apply, out4, routing4]
  rfl

end Cert.RefLayer

end
-- ==== Proof.RefLayerE5.lean ====
/-
  Expert 5 of the reference, stage by stage: its slice of the gate-up array, the first matrix product (proj), the gated
  activation g · logistic g · u (act), its slice of the down array, the second matrix product (expertOut), the routing
  weight summed over the two slots (routing), and the weighted contribution (contrib).
-/
import proofs.«116809_g77670188581355_cont_9to1_m_704_5_alg».proof.Proof.RefReadP
import proofs.«116809_g77670188581355_cont_9to1_m_704_5_alg».proof.Proof.ExpertSum
import proofs.«116809_g77670188581355_cont_9to1_m_704_5_alg».proof.Proof.RefLayerScalar
import proofs.«116809_g77670188581355_cont_9to1_m_704_5_alg».proof.Proof.RefLayerHidden

noncomputable section

namespace Cert.RefLayer

open Cert.ReferenceIdeal Cert.ReferenceIdeal.ReadP Cert.ExpertSum Idealize.ShloMosaic Idealize.ShloMosaic.ValueIdx

/-- Expert 5's gate-up matrix: the slice at [5, 0, 0] flattened to [1024, 2048] read at (h, n) is the argument at (5, h, n). -/
theorem gateup5_at (x1 : (⟨S8x1024x2048, .f32⟩ : BufTy).Contents (Elt Ideal)) (j : S1024x2048.Idx) :
    val_main_v123 (F := Ideal) x1 j = x1 (ix3 (5 : Fin 8) (j 0) (j 1)) := by
  rw [val_main_v123_apply, val_main_v122_apply]
  refine congrArg x1 (funext fun a => ?_)
  match a with
  | ⟨0, _⟩ => exact Fin.ext rfl
  | ⟨1, _⟩ => exact Fin.ext (by have h0 : (j 0).val < 1024 := (j 0).isLt; have h1 : (j 1).val < 2048 := (j 1).isLt; show ((j 0).val * 2048 + (j 1).val) / 2048 % 1024 = (j 0).val; omega)
  | ⟨2, _⟩ => exact Fin.ext (by have h0 : (j 0).val < 1024 := (j 0).isLt; have h1 : (j 1).val < 2048 := (j 1).isLt; show ((j 0).val * 2048 + (j 1).val) % 2048 = (j 1).val; omega)

/-- The first matrix product at (r, n): the token row against column n of the expert's gate-up matrix. -/
theorem proj5 (x0 : (⟨S1x2048x1024, .f32⟩ : BufTy).Contents (Elt Ideal)) (x1 : (⟨S8x1024x2048, .f32⟩ : BufTy).Contents (Elt Ideal)) (i : S2048x2048.Idx) :
    val_main_v124 (F := Ideal) x0 x1 i = proj x0 x1 (5 : Fin 8) (i 0) (i 1) := by
  rw [val_main_v124_apply]
  unfold proj
  refine Finset.sum_congr rfl fun k _ => ?_
  rw [hidden_at, gateup5_at]
  rfl

/-- The gated activation at (r, k): the gate half is columns [0, 1024) of the product, the up half columns [1024, 2048),
    and the sigmoid is written out as 1 / (1 + exp (-g)). -/
theorem act5 (x0 : (⟨S1x2048x1024, .f32⟩ : BufTy).Contents (Elt Ideal)) (x1 : (⟨S8x1024x2048, .f32⟩ : BufTy).Contents (Elt Ideal)) (j : S2048x1024.Idx) :
    val_main_v134 (F := Ideal) x0 x1 j = act x0 x1 (5 : Fin 8) (j 0) (j 1) := by
  rw [val_main_v134_apply, val_main_v133_apply, val_main_v132_apply, val_main_v131_apply, val_main_cst_25_apply,
    val_main_v130_apply, val_main_v129_apply, val_main_cst_24_apply, val_main_v128_apply, val_main_v127_apply,
    val_main_v126_apply, val_main_v125_apply, proj5, proj5, sigmoid_spelled]
  rfl

/-- Expert 5's down matrix: the slice at [5, 0, 0] flattened to [1024, 1024] read at (k, c) is the argument at (5, k, c). -/
theorem down5_at (x2 : (⟨S8x1024x1024, .f32⟩ : BufTy).Contents (Elt Ideal)) (j : S1024x1024.Idx) :
    val_main_v136 (F := Ideal) x2 j = x2 (ix3 (5 : Fin 8) (j 0) (j 1)) := by
  rw [val_main_v136_apply, val_main_v135_apply]
  refine congrArg x2 (funext fun a => ?_)
  match a with
  | ⟨0, _⟩ => exact Fin.ext rfl
  | ⟨1, _⟩ => exact Fin.ext (by have h0 : (j 0).val < 1024 := (j 0).isLt; have h1 : (j 1).val < 1024 := (j 1).isLt; show ((j 0).val * 1024 + (j 1).val) / 1024 % 1024 = (j 0).val; omega)
  | ⟨2, _⟩ => exact Fin.ext (by have h0 : (j 0).val < 1024 := (j 0).isLt; have h1 : (j 1).val < 1024 := (j 1).isLt; show ((j 0).val * 1024 + (j 1).val) % 1024 = (j 1).val; omega)

/-- The second matrix product at (r, c): the activation row against column c of the expert's down matrix. -/
theorem out5 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (j : S2048x1024.Idx) :
    val_main_v137 (F := Ideal) x0 x1 x2 j = expertOut x0 x1 x2 (5 : Fin 8) (j 0) (j 1) := by
  rw [val_main_v137_apply]
  unfold expertOut
  refine Finset.sum_congr rfl fun k _ => ?_
  rw [act5, down5_at]
  rfl

/-- The routing weight of expert 5 for token r: the zero word plus the sum over the two slots of the slot's weight
    where the slot's index equals 5, and the zero word elsewhere. -/
theorem routing5 (x3 : (⟨S2048x2, .i32⟩ : BufTy).Contents (Elt Ideal)) (x4 : (⟨S2048x2, .f32⟩ : BufTy).Contents (Elt Ideal)) (j : S2048.Idx) :
    val_main_v141 (F := Ideal) x3 x4 j = routing x3 x4 (5 : Fin 8) (j 0) := by
  have hidx : ∀ s : Fin 2, idx_main_v141 j s = ix2 (j 0) s := fun s => funext fun a => by
    match a with
    | ⟨0, _⟩ => rfl
    | ⟨1, _⟩ => rfl
  rw [val_main_v141_apply, val_main_cst_28_apply]
  unfold routing
  refine congrArg (_ + ·) (Finset.sum_congr rfl fun s _ => ?_)
  rw [val_main_v140_apply, val_main_v139_apply, val_main_v138_apply, val_main_c_26_apply,
    val_main_call5_v1_apply, val_main_call5_v0_apply, val_main_cst_27_apply, hidx s]
  rfl

/-- Expert 5's contribution at (r, c): its output times its routing weight, the weight broadcast along the row. -/
theorem contrib5 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (x3 : (⟨S2048x2, .i32⟩ : BufTy).Contents (Elt Ideal)) (x4 : (⟨S2048x2, .f32⟩ : BufTy).Contents (Elt Ideal)) (j : S2048x1024.Idx) :
    val_main_v144 (F := Ideal) x0 x1 x2 x3 x4 j = contrib x0 x1 x2 x3 x4 (5 : Fin 8) (j 0) (j 1) := by
  rw [val_main_v144_apply, val_main_v143_apply, val_main_v142_apply, out5, routing5]
  rfl

end Cert.RefLayer

end
-- ==== Proof.RefLayerE6.lean ====
/-
  Expert 6 of the reference, stage by stage: its slice of the gate-up array, the first matrix product (proj), the gated
  activation g · logistic g · u (act), its slice of the down array, the second matrix product (expertOut), the routing
  weight summed over the two slots (routing), and the weighted contribution (contrib).
-/
import proofs.«116809_g77670188581355_cont_9to1_m_704_5_alg».proof.Proof.RefReadP
import proofs.«116809_g77670188581355_cont_9to1_m_704_5_alg».proof.Proof.ExpertSum
import proofs.«116809_g77670188581355_cont_9to1_m_704_5_alg».proof.Proof.RefLayerScalar
import proofs.«116809_g77670188581355_cont_9to1_m_704_5_alg».proof.Proof.RefLayerHidden

noncomputable section

namespace Cert.RefLayer

open Cert.ReferenceIdeal Cert.ReferenceIdeal.ReadP Cert.ExpertSum Idealize.ShloMosaic Idealize.ShloMosaic.ValueIdx

/-- Expert 6's gate-up matrix: the slice at [6, 0, 0] flattened to [1024, 2048] read at (h, n) is the argument at (6, h, n). -/
theorem gateup6_at (x1 : (⟨S8x1024x2048, .f32⟩ : BufTy).Contents (Elt Ideal)) (j : S1024x2048.Idx) :
    val_main_v147 (F := Ideal) x1 j = x1 (ix3 (6 : Fin 8) (j 0) (j 1)) := by
  rw [val_main_v147_apply, val_main_v146_apply]
  refine congrArg x1 (funext fun a => ?_)
  match a with
  | ⟨0, _⟩ => exact Fin.ext rfl
  | ⟨1, _⟩ => exact Fin.ext (by have h0 : (j 0).val < 1024 := (j 0).isLt; have h1 : (j 1).val < 2048 := (j 1).isLt; show ((j 0).val * 2048 + (j 1).val) / 2048 % 1024 = (j 0).val; omega)
  | ⟨2, _⟩ => exact Fin.ext (by have h0 : (j 0).val < 1024 := (j 0).isLt; have h1 : (j 1).val < 2048 := (j 1).isLt; show ((j 0).val * 2048 + (j 1).val) % 2048 = (j 1).val; omega)

/-- The first matrix product at (r, n): the token row against column n of the expert's gate-up matrix. -/
theorem proj6 (x0 : (⟨S1x2048x1024, .f32⟩ : BufTy).Contents (Elt Ideal)) (x1 : (⟨S8x1024x2048, .f32⟩ : BufTy).Contents (Elt Ideal)) (i : S2048x2048.Idx) :
    val_main_v148 (F := Ideal) x0 x1 i = proj x0 x1 (6 : Fin 8) (i 0) (i 1) := by
  rw [val_main_v148_apply]
  unfold proj
  refine Finset.sum_congr rfl fun k _ => ?_
  rw [hidden_at, gateup6_at]
  rfl

/-- The gated activation at (r, k): the gate half is columns [0, 1024) of the product, the up half columns [1024, 2048),
    and the sigmoid is written out as 1 / (1 + exp (-g)). -/
theorem act6 (x0 : (⟨S1x2048x1024, .f32⟩ : BufTy).Contents (Elt Ideal)) (x1 : (⟨S8x1024x2048, .f32⟩ : BufTy).Contents (Elt Ideal)) (j : S2048x1024.Idx) :
    val_main_v158 (F := Ideal) x0 x1 j = act x0 x1 (6 : Fin 8) (j 0) (j 1) := by
  rw [val_main_v158_apply, val_main_v157_apply, val_main_v156_apply, val_main_v155_apply, val_main_cst_30_apply,
    val_main_v154_apply, val_main_v153_apply, val_main_cst_29_apply, val_main_v152_apply, val_main_v151_apply,
    val_main_v150_apply, val_main_v149_apply, proj6, proj6, sigmoid_spelled]
  rfl

/-- Expert 6's down matrix: the slice at [6, 0, 0] flattened to [1024, 1024] read at (k, c) is the argument at (6, k, c). -/
theorem down6_at (x2 : (⟨S8x1024x1024, .f32⟩ : BufTy).Contents (Elt Ideal)) (j : S1024x1024.Idx) :
    val_main_v160 (F := Ideal) x2 j = x2 (ix3 (6 : Fin 8) (j 0) (j 1)) := by
  rw [val_main_v160_apply, val_main_v159_apply]
  refine congrArg x2 (funext fun a => ?_)
  match a with
  | ⟨0, _⟩ => exact Fin.ext rfl
  | ⟨1, _⟩ => exact Fin.ext (by have h0 : (j 0).val < 1024 := (j 0).isLt; have h1 : (j 1).val < 1024 := (j 1).isLt; show ((j 0).val * 1024 + (j 1).val) / 1024 % 1024 = (j 0).val; omega)
  | ⟨2, _⟩ => exact Fin.ext (by have h0 : (j 0).val < 1024 := (j 0).isLt; have h1 : (j 1).val < 1024 := (j 1).isLt; show ((j 0).val * 1024 + (j 1).val) % 1024 = (j 1).val; omega)

/-- The second matrix product at (r, c): the activation row against column c of the expert's down matrix. -/
theorem out6 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (j : S2048x1024.Idx) :
    val_main_v161 (F := Ideal) x0 x1 x2 j = expertOut x0 x1 x2 (6 : Fin 8) (j 0) (j 1) := by
  rw [val_main_v161_apply]
  unfold expertOut
  refine Finset.sum_congr rfl fun k _ => ?_
  rw [act6, down6_at]
  rfl

/-- The routing weight of expert 6 for token r: the zero word plus the sum over the two slots of the slot's weight
    where the slot's index equals 6, and the zero word elsewhere. -/
theorem routing6 (x3 : (⟨S2048x2, .i32⟩ : BufTy).Contents (Elt Ideal)) (x4 : (⟨S2048x2, .f32⟩ : BufTy).Contents (Elt Ideal)) (j : S2048.Idx) :
    val_main_v165 (F := Ideal) x3 x4 j = routing x3 x4 (6 : Fin 8) (j 0) := by
  have hidx : ∀ s : Fin 2, idx_main_v165 j s = ix2 (j 0) s := fun s => funext fun a => by
    match a with
    | ⟨0, _⟩ => rfl
    | ⟨1, _⟩ => rfl
  rw [val_main_v165_apply, val_main_cst_33_apply]
  unfold routing
  refine congrArg (_ + ·) (Finset.sum_congr rfl fun s _ => ?_)
  rw [val_main_v164_apply, val_main_v163_apply, val_main_v162_apply, val_main_c_31_apply,
    val_main_call6_v1_apply, val_main_call6_v0_apply, val_main_cst_32_apply, hidx s]
  rfl

/-- Expert 6's contribution at (r, c): its output times its routing weight, the weight broadcast along the row. -/
theorem contrib6 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (x3 : (⟨S2048x2, .i32⟩ : BufTy).Contents (Elt Ideal)) (x4 : (⟨S2048x2, .f32⟩ : BufTy).Contents (Elt Ideal)) (j : S2048x1024.Idx) :
    val_main_v168 (F := Ideal) x0 x1 x2 x3 x4 j = contrib x0 x1 x2 x3 x4 (6 : Fin 8) (j 0) (j 1) := by
  rw [val_main_v168_apply, val_main_v167_apply, val_main_v166_apply, out6, routing6]
  rfl

end Cert.RefLayer

end
-- ==== Proof.RefLayerE7.lean ====
/-
  Expert 7 of the reference, stage by stage: its slice of the gate-up array, the first matrix product (proj), the gated
  activation g · logistic g · u (act), its slice of the down array, the second matrix product (expertOut), the routing
  weight summed over the two slots (routing), and the weighted contribution (contrib).
-/
import proofs.«116809_g77670188581355_cont_9to1_m_704_5_alg».proof.Proof.RefReadP
import proofs.«116809_g77670188581355_cont_9to1_m_704_5_alg».proof.Proof.ExpertSum
import proofs.«116809_g77670188581355_cont_9to1_m_704_5_alg».proof.Proof.RefLayerScalar
import proofs.«116809_g77670188581355_cont_9to1_m_704_5_alg».proof.Proof.RefLayerHidden

noncomputable section

namespace Cert.RefLayer

open Cert.ReferenceIdeal Cert.ReferenceIdeal.ReadP Cert.ExpertSum Idealize.ShloMosaic Idealize.ShloMosaic.ValueIdx

/-- Expert 7's gate-up matrix: the slice at [7, 0, 0] flattened to [1024, 2048] read at (h, n) is the argument at (7, h, n). -/
theorem gateup7_at (x1 : (⟨S8x1024x2048, .f32⟩ : BufTy).Contents (Elt Ideal)) (j : S1024x2048.Idx) :
    val_main_v171 (F := Ideal) x1 j = x1 (ix3 (7 : Fin 8) (j 0) (j 1)) := by
  rw [val_main_v171_apply, val_main_v170_apply]
  refine congrArg x1 (funext fun a => ?_)
  match a with
  | ⟨0, _⟩ => exact Fin.ext rfl
  | ⟨1, _⟩ => exact Fin.ext (by have h0 : (j 0).val < 1024 := (j 0).isLt; have h1 : (j 1).val < 2048 := (j 1).isLt; show ((j 0).val * 2048 + (j 1).val) / 2048 % 1024 = (j 0).val; omega)
  | ⟨2, _⟩ => exact Fin.ext (by have h0 : (j 0).val < 1024 := (j 0).isLt; have h1 : (j 1).val < 2048 := (j 1).isLt; show ((j 0).val * 2048 + (j 1).val) % 2048 = (j 1).val; omega)

/-- The first matrix product at (r, n): the token row against column n of the expert's gate-up matrix. -/
theorem proj7 (x0 : (⟨S1x2048x1024, .f32⟩ : BufTy).Contents (Elt Ideal)) (x1 : (⟨S8x1024x2048, .f32⟩ : BufTy).Contents (Elt Ideal)) (i : S2048x2048.Idx) :
    val_main_v172 (F := Ideal) x0 x1 i = proj x0 x1 (7 : Fin 8) (i 0) (i 1) := by
  rw [val_main_v172_apply]
  unfold proj
  refine Finset.sum_congr rfl fun k _ => ?_
  rw [hidden_at, gateup7_at]
  rfl

/-- The gated activation at (r, k): the gate half is columns [0, 1024) of the product, the up half columns [1024, 2048),
    and the sigmoid is written out as 1 / (1 + exp (-g)). -/
theorem act7 (x0 : (⟨S1x2048x1024, .f32⟩ : BufTy).Contents (Elt Ideal)) (x1 : (⟨S8x1024x2048, .f32⟩ : BufTy).Contents (Elt Ideal)) (j : S2048x1024.Idx) :
    val_main_v182 (F := Ideal) x0 x1 j = act x0 x1 (7 : Fin 8) (j 0) (j 1) := by
  rw [val_main_v182_apply, val_main_v181_apply, val_main_v180_apply, val_main_v179_apply, val_main_cst_35_apply,
    val_main_v178_apply, val_main_v177_apply, val_main_cst_34_apply, val_main_v176_apply, val_main_v175_apply,
    val_main_v174_apply, val_main_v173_apply, proj7, proj7, sigmoid_spelled]
  rfl

/-- Expert 7's down matrix: the slice at [7, 0, 0] flattened to [1024, 1024] read at (k, c) is the argument at (7, k, c). -/
theorem down7_at (x2 : (⟨S8x1024x1024, .f32⟩ : BufTy).Contents (Elt Ideal)) (j : S1024x1024.Idx) :
    val_main_v184 (F := Ideal) x2 j = x2 (ix3 (7 : Fin 8) (j 0) (j 1)) := by
  rw [val_main_v184_apply, val_main_v183_apply]
  refine congrArg x2 (funext fun a => ?_)
  match a with
  | ⟨0, _⟩ => exact Fin.ext rfl
  | ⟨1, _⟩ => exact Fin.ext (by have h0 : (j 0).val < 1024 := (j 0).isLt; have h1 : (j 1).val < 1024 := (j 1).isLt; show ((j 0).val * 1024 + (j 1).val) / 1024 % 1024 = (j 0).val; omega)
  | ⟨2, _⟩ => exact Fin.ext (by have h0 : (j 0).val < 1024 := (j 0).isLt; have h1 : (j 1).val < 1024 := (j 1).isLt; show ((j 0).val * 1024 + (j 1).val) % 1024 = (j 1).val; omega)

/-- The second matrix product at (r, c): the activation row against column c of the expert's down matrix. -/
theorem out7 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (j : S2048x1024.Idx) :
    val_main_v185 (F := Ideal) x0 x1 x2 j = expertOut x0 x1 x2 (7 : Fin 8) (j 0) (j 1) := by
  rw [val_main_v185_apply]
  unfold expertOut
  refine Finset.sum_congr rfl fun k _ => ?_
  rw [act7, down7_at]
  rfl

/-- The routing weight of expert 7 for token r: the zero word plus the sum over the two slots of the slot's weight
    where the slot's index equals 7, and the zero word elsewhere. -/
theorem routing7 (x3 : (⟨S2048x2, .i32⟩ : BufTy).Contents (Elt Ideal)) (x4 : (⟨S2048x2, .f32⟩ : BufTy).Contents (Elt Ideal)) (j : S2048.Idx) :
    val_main_v189 (F := Ideal) x3 x4 j = routing x3 x4 (7 : Fin 8) (j 0) := by
  have hidx : ∀ s : Fin 2, idx_main_v189 j s = ix2 (j 0) s := fun s => funext fun a => by
    match a with
    | ⟨0, _⟩ => rfl
    | ⟨1, _⟩ => rfl
  rw [val_main_v189_apply, val_main_cst_38_apply]
  unfold routing
  refine congrArg (_ + ·) (Finset.sum_congr rfl fun s _ => ?_)
  rw [val_main_v188_apply, val_main_v187_apply, val_main_v186_apply, val_main_c_36_apply,
    val_main_call7_v1_apply, val_main_call7_v0_apply, val_main_cst_37_apply, hidx s]
  rfl

/-- Expert 7's contribution at (r, c): its output times its routing weight, the weight broadcast along the row. -/
theorem contrib7 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (x3 : (⟨S2048x2, .i32⟩ : BufTy).Contents (Elt Ideal)) (x4 : (⟨S2048x2, .f32⟩ : BufTy).Contents (Elt Ideal)) (j : S2048x1024.Idx) :
    val_main_v192 (F := Ideal) x0 x1 x2 x3 x4 j = contrib x0 x1 x2 x3 x4 (7 : Fin 8) (j 0) (j 1) := by
  rw [val_main_v192_apply, val_main_v191_apply, val_main_v190_apply, out7, routing7]
  rfl

end Cert.RefLayer

end
-- ==== Proof.RefLayer.lean ====
/-
  The reference's result is the layer: the running sum after expert e is the left-nested sum of the contributions of
  experts 0 … e (the first addition is to an array of zero words, and 0 + a = a), and the final reshape
  [2048, 1024] → [1, 2048, 1024] reads position (0, r, c) from (r, c).
-/
import proofs.«116809_g77670188581355_cont_9to1_m_704_5_alg».proof.Proof.RefLayerE0
import proofs.«116809_g77670188581355_cont_9to1_m_704_5_alg».proof.Proof.RefLayerE1
import proofs.«116809_g77670188581355_cont_9to1_m_704_5_alg».proof.Proof.RefLayerE2
import proofs.«116809_g77670188581355_cont_9to1_m_704_5_alg».proof.Proof.RefLayerE3
import proofs.«116809_g77670188581355_cont_9to1_m_704_5_alg».proof.Proof.RefLayerE4
import proofs.«116809_g77670188581355_cont_9to1_m_704_5_alg».proof.Proof.RefLayerE5
import proofs.«116809_g77670188581355_cont_9to1_m_704_5_alg».proof.Proof.RefLayerE6
import proofs.«116809_g77670188581355_cont_9to1_m_704_5_alg».proof.Proof.RefLayerE7

noncomputable section

namespace Cert.RefLayer

open Cert.ReferenceIdeal Cert.ReferenceIdeal.ReadP Cert.ExpertSum Idealize.ShloMosaic Idealize.ShloMosaic.ValueIdx

/-- After expert 0: the zero array plus the first contribution is the first contribution. -/
theorem partial0 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (x3 : (⟨S2048x2, .i32⟩ : BufTy).Contents (Elt Ideal)) (x4 : (⟨S2048x2, .f32⟩ : BufTy).Contents (Elt Ideal)) (j : S2048x1024.Idx) :
    val_main_v25 (F := Ideal) x0 x1 x2 x3 x4 j = partialSum x0 x1 x2 x3 x4 (j 0) (j 1) 0 (by omega) := by
  rw [val_main_v25_apply, val_main_v1_apply, val_main_cst_apply, contrib0, zero_word_add]
  rfl

/-- After expert 1: the sum so far plus expert 1's contribution. -/
theorem partial1 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (x3 : (⟨S2048x2, .i32⟩ : BufTy).Contents (Elt Ideal)) (x4 : (⟨S2048x2, .f32⟩ : BufTy).Contents (Elt Ideal)) (j : S2048x1024.Idx) :
    val_main_v49 (F := Ideal) x0 x1 x2 x3 x4 j = partialSum x0 x1 x2 x3 x4 (j 0) (j 1) 1 (by omega) := by
  rw [val_main_v49_apply, partial0, contrib1]
  rfl

/-- After expert 2: the sum so far plus expert 2's contribution. -/
theorem partial2 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (x3 : (⟨S2048x2, .i32⟩ : BufTy).Contents (Elt Ideal)) (x4 : (⟨S2048x2, .f32⟩ : BufTy).Contents (Elt Ideal)) (j : S2048x1024.Idx) :
    val_main_v73 (F := Ideal) x0 x1 x2 x3 x4 j = partialSum x0 x1 x2 x3 x4 (j 0) (j 1) 2 (by omega) := by
  rw [val_main_v73_apply, partial1, contrib2]
  rfl

/-- After expert 3: the sum so far plus expert 3's contribution. -/
theorem partial3 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (x3 : (⟨S2048x2, .i32⟩ : BufTy).Contents (Elt Ideal)) (x4 : (⟨S2048x2, .f32⟩ : BufTy).Contents (Elt Ideal)) (j : S2048x1024.Idx) :
    val_main_v97 (F := Ideal) x0 x1 x2 x3 x4 j = partialSum x0 x1 x2 x3 x4 (j 0) (j 1) 3 (by omega) := by
  rw [val_main_v97_apply, partial2, contrib3]
  rfl

/-- After expert 4: the sum so far plus expert 4's contribution. -/
theorem partial4 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (x3 : (⟨S2048x2, .i32⟩ : BufTy).Contents (Elt Ideal)) (x4 : (⟨S2048x2, .f32⟩ : BufTy).Contents (Elt Ideal)) (j : S2048x1024.Idx) :
    val_main_v121 (F := Ideal) x0 x1 x2 x3 x4 j = partialSum x0 x1 x2 x3 x4 (j 0) (j 1) 4 (by omega) := by
  rw [val_main_v121_apply, partial3, contrib4]
  rfl

/-- After expert 5: the sum so far plus expert 5's contribution. -/
theorem partial5 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (x3 : (⟨S2048x2, .i32⟩ : BufTy).Contents (Elt Ideal)) (x4 : (⟨S2048x2, .f32⟩ : BufTy).Contents (Elt Ideal)) (j : S2048x1024.Idx) :
    val_main_v145 (F := Ideal) x0 x1 x2 x3 x4 j = partialSum x0 x1 x2 x3 x4 (j 0) (j 1) 5 (by omega) := by
  rw [val_main_v145_apply, partial4, contrib5]
  rfl

/-- After expert 6: the sum so far plus expert 6's contribution. -/
theorem partial6 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (x3 : (⟨S2048x2, .i32⟩ : BufTy).Contents (Elt Ideal)) (x4 : (⟨S2048x2, .f32⟩ : BufTy).Contents (Elt Ideal)) (j : S2048x1024.Idx) :
    val_main_v169 (F := Ideal) x0 x1 x2 x3 x4 j = partialSum x0 x1 x2 x3 x4 (j 0) (j 1) 6 (by omega) := by
  rw [val_main_v169_apply, partial5, contrib6]
  rfl

/-- After expert 7: the sum so far plus expert 7's contribution. -/
theorem partial7 (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (x3 : (⟨S2048x2, .i32⟩ : BufTy).Contents (Elt Ideal)) (x4 : (⟨S2048x2, .f32⟩ : BufTy).Contents (Elt Ideal)) (j : S2048x1024.Idx) :
    val_main_v193 (F := Ideal) x0 x1 x2 x3 x4 j = partialSum x0 x1 x2 x3 x4 (j 0) (j 1) 7 (by omega) := by
  rw [val_main_v193_apply, partial6, contrib7]
  rfl

/-- The reference's result, element by element, is the layer of the specification. -/
theorem reference_is_layer (x0 : (⟨S1x2048x1024, .f32⟩ : BufTy).Contents (Elt Ideal)) (x1 : (⟨S8x1024x2048, .f32⟩ : BufTy).Contents (Elt Ideal)) (x2 : (⟨S8x1024x1024, .f32⟩ : BufTy).Contents (Elt Ideal)) (x3 : (⟨S2048x2, .i32⟩ : BufTy).Contents (Elt Ideal)) (x4 : (⟨S2048x2, .f32⟩ : BufTy).Contents (Elt Ideal)) :
    Cert.ReferenceIdeal.ReadP.val_main_v194 (F := Ideal) x0 x1 x2 x3 x4 = Cert.ExpertSum.layer x0 x1 x2 x3 x4 := by
  funext i
  rw [val_main_v194_apply, partial7]
  exact congrArg₂ (fun (r : Fin 2048) (c : Fin 1024) => partialSum x0 x1 x2 x3 x4 r c 7 (by omega))
    (Fin.ext (by have h0 : (i 0).val < 1 := (i 0).isLt; have h1 : (i 1).val < 2048 := (i 1).isLt; have h2 : (i 2).val < 1024 := (i 2).isLt; show (((i 0).val * 2048 + (i 1).val) * 1024 + (i 2).val) / 1024 = (i 1).val; omega))
    (Fin.ext (by have h0 : (i 0).val < 1 := (i 0).isLt; have h1 : (i 1).val < 2048 := (i 1).isLt; have h2 : (i 2).val < 1024 := (i 2).isLt; show (((i 0).val * 2048 + (i 1).val) * 1024 + (i 2).val) % 1024 = (i 2).val; omega))

end Cert.RefLayer

end
-- ==== Proof.lean ====
/-
  The routed mixture-of-experts layer (top-2 of 8 experts, a gated MLP per expert, the experts' outputs weighted by the
  router and summed): a Pallas kernel over a 4 × 8 grid (token block × expert) against its jnp reference.

  Both programs compute, for token r and column j,
      out[r, j] = ((((((c₀ + c₁) + c₂) + c₃) + c₄) + c₅) + c₆) + c₇,
      cₑ = (∑ₖ silu(gₑₖ) · uₑₖ · Wd[e, k, j]) · (∑ₛ [idx[r, s] = e] · w[r, s]),
  with g, u the two halves of x[r, ·] · Wgu[e]. The kernel keeps the running sum in its output block across the eight
  experts of a token block — the first expert overwrites the block, each later one adds to it — and writes the block
  back after the last; the reference starts from an array of zeros and adds the experts' contributions one after the
  other over all tokens at once. On the extended reals the two agree entry by entry: the kernel's matrix products into a
  zero accumulator and its lane sum are the reference's dot products and reduction, the kernel's logistic is the
  reference's 1 / (1 + exp(−g)), a change of float format is the identity, and the only law used is 0 + a = a. Nothing
  needs the inputs finite.

  The three frames: each kernel's by running its body symbolically in its two cases (first expert / later expert) under
  the pipeline's launch; the reference's from its run. The idealization rewrote nothing, so `preserves` is `True`.
-/
import proofs.«116809_g77670188581355_cont_9to1_m_704_5_alg».proof.Defs
import proofs.«116809_g77670188581355_cont_9to1_m_704_5_alg».proof.Proof.Gen.Kernel
import proofs.«116809_g77670188581355_cont_9to1_m_704_5_alg».proof.Proof.Gen.KernelIdeal
import proofs.«116809_g77670188581355_cont_9to1_m_704_5_alg».proof.Proof.Gen.ReferenceIdeal
import proofs.«116809_g77670188581355_cont_9to1_m_704_5_alg».proof.Proof.Gen.Pre_finite_inputs
import proofs.«116809_g77670188581355_cont_9to1_m_704_5_alg».proof.Proof.BitsBody
import proofs.«116809_g77670188581355_cont_9to1_m_704_5_alg».proof.Proof.IdealValue
import proofs.«116809_g77670188581355_cont_9to1_m_704_5_alg».proof.Proof.RefLayer
import Idealize.ShloMosaic.Adequacy
import Idealize.ShloMosaic.Init

noncomputable section

namespace Cert.Proof

open Idealize.ShloMosaic Idealize.ShloMosaic.TcCoe Idealize.SL.Sem

/-- The word-level kernel runs to the end and keeps its arguments. -/
theorem frame_kernel : Cert.frame_Kernel := fun m ρ _ => Cert.Kernel.Body.frame m ρ

/-- So does the idealized kernel. -/
theorem frame_ideal : Cert.frame_KernelIdeal := fun m ρ _ => Cert.KernelIdeal.Body.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both idealized programs end with the layer of the (agreeing) argument arrays in their result buffers. -/
theorem algebraic : Cert.algebraic_KernelIdeal_ReferenceIdeal := by
  intro m ρ m' ρ' _ hagree
  refine ⟨fun c => Cert.ExpertSum.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), Cert.KernelIdeal.Layer.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v194_eq, Cert.RefLayer.reference_is_layer,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
